-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x64x64 : Shape := ⟨5, ![4, 64, 32, 64, 64]⟩
abbrev S32x64 : Shape := ⟨2, ![32, 64]⟩
abbrev S32 : Shape := ⟨1, ![32]⟩
abbrev S_ : Shape := ⟨0, ![]⟩

class Facts : Prop where
  bcast_S_S4x64x32x64x64 : S_.BroadcastsInDim S4x64x32x64x64 (![] : Fin 0 → Fin S4x64x32x64x64.rank)
  reducesTo_S4x64x32x64x64_S_d0_1_2_3_4 : S4x64x32x64x64.ReducesTo [0, 1, 2, 3, 4] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S4x64x32x64x64 .f32) (main_arg1 : FVec F S32x64 .f32) (main_arg2 : FVec F S32 .f32) : IVec S_ 1 :=
  let main_v0 : FVec F S4x64x32x64x64 .f32 := Host.absf main_arg0
  let main_cst : FVec F S_ .f32 := constant S_ .f32 0x7F800000#32
  let main_v1 : FVec F S4x64x32x64x64 .f32 := broadcastInDim S4x64x32x64x64 ![] bcast_S_S4x64x32x64x64 main_cst
  let main_v2 : IVec S4x64x32x64x64 1 := cmpf .olt main_v0 main_v1
  let main_c : IVec S_ 1 := constantI S_ 1 1#1
  let main_v3 : IVec S_ 1 := (fun x v => Host.reduce IntOp.andi x v reducesTo_S4x64x32x64x64_S_d0_1_2_3_4 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S4x64x32x64x64 : Shape := ⟨5, ![4, 64, 32, 64, 64]⟩
abbrev S32x64 : Shape := ⟨2, ![32, 64]⟩
abbrev S32 : Shape := ⟨1, ![32]⟩
abbrev S4x64x131072 : Shape := ⟨3, ![4, 64, 131072]⟩
abbrev S32x1 : Shape := ⟨2, ![32, 1]⟩
abbrev S_ : Shape := ⟨0, ![]⟩
abbrev S4x32x64 : Shape := ⟨3, ![4, 32, 64]⟩
abbrev S4x32x131072 : Shape := ⟨3, ![4, 32, 131072]⟩
abbrev S1x64x16384 : Shape := ⟨3, ![1, 64, 16384]⟩
abbrev S1x32x64 : Shape := ⟨3, ![1, 32, 64]⟩
abbrev S1x32x16384 : Shape := ⟨3, ![1, 32, 16384]⟩
abbrev S64x16384 : Shape := ⟨2, ![64, 16384]⟩
abbrev S32x16384 : Shape := ⟨2, ![32, 16384]⟩
abbrev S16384 : Shape := ⟨1, ![16384]⟩
abbrev S1x16384 : Shape := ⟨2, ![1, 16384]⟩
abbrev S16384x1 : Shape := ⟨2, ![16384, 1]⟩
abbrev S4x32x32x64x64 : Shape := ⟨5, ![4, 32, 32, 64, 64]⟩

abbrev nBuf : Space → Nat
  | .hbm => 12
  | .vmem => 11
  | .smem => 0
  | _ => 0

abbrev bufTy : (tb : Table) → Fin (tcTables nBuf tb) → BufTy
  | .hbm, ⟨0, _⟩ => ⟨S4x64x32x64x64, .f32⟩
  | .hbm, ⟨1, _⟩ => ⟨S32x64, .f32⟩
  | .hbm, ⟨2, _⟩ => ⟨S32, .f32⟩
  | .hbm, ⟨3, _⟩ => ⟨S4x64x131072, .f32⟩
  | .hbm, ⟨4, _⟩ => ⟨S32x1, .f32⟩
  | .hbm, ⟨5, _⟩ => ⟨S32x64, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S4x32x64, .f32⟩
  | .hbm, ⟨10, _⟩ => ⟨S4x32x131072, .f32⟩
  | .hbm, ⟨11, _⟩ => ⟨S4x32x32x64x64, .f32⟩
  | .local _ .vmem, ⟨0, _⟩ => ⟨S1x64x16384, .f32⟩
  | .local _ .vmem, ⟨1, _⟩ => ⟨S1x64x16384, .f32⟩
  | .local _ .vmem, ⟨2, _⟩ => ⟨S32x64, .f32⟩
  | .local _ .vmem, ⟨3, _⟩ => ⟨S32x1, .f32⟩
  | .local _ .vmem, ⟨4, _⟩ => ⟨S32x1, .f32⟩
  | .local _ .vmem, ⟨5, _⟩ => ⟨S1x32x64, .f32⟩
  | .local _ .vmem, ⟨6, _⟩ => ⟨S1x32x64, .f32⟩
  | .local _ .vmem, ⟨7, _⟩ => ⟨S1x32x16384, .f32⟩
  | .local _ .vmem, ⟨8, _⟩ => ⟨S1x32x16384, .f32⟩
  | .local _ .vmem, ⟨9, _⟩ => ⟨S32x64, .f32⟩
  | .local _ .vmem, ⟨10, _⟩ => ⟨S32x1, .f32⟩
  | _, _ => ⟨S4x64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_27 : BitVec 32 := 0#32
  let v52 : BitVec 1 := Scalar.cmpi .ne v51 c0_i32_27
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x64x32x64x64_S4x64x131072 : S4x64x32x64x64.ShapeCasts S4x64x131072
  shapeCasts_S32_S32x1 : S32.ShapeCasts S32x1
  reducesTo_S32x64_S32_d1 : S32x64.ReducesTo [1] S32
  h_S_ : 0 < S_.numel
  bcast_S32_S32x1_0 : S32.BroadcastsInDim S32x1 (![0] : Fin 1 → Fin S32x1.rank)
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  bitsLt_bf16_f32 : FTy.bits .bf16 < FTy.bits .f32
  reduces_S64x16384_S16384 : S64x16384.Reduces [0] S16384
  shapeCasts_S16384_S1x16384 : S16384.ShapeCasts S1x16384
  broadcasts_S1x16384_S32x16384 : S1x16384.Broadcasts S32x16384
  broadcasts_S32x1_S32x16384 : S32x1.Broadcasts S32x16384
  reduces_S32x16384_S16384 : S32x16384.Reduces [0] S16384
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  shapeCasts_S32x16384_S1x32x16384 : S32x16384.ShapeCasts S1x32x16384
  shapeCasts_S32x64_S32x64 : S32x64.ShapeCasts S32x64
  broadcasts_S32x1_S32x64 : S32x1.Broadcasts S32x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x64_S1x32x64 : S32x64.ShapeCasts S1x32x64
  shapeCasts_S4x32x131072_S4x32x32x64x64 : S4x32x131072.ShapeCasts S4x32x32x64x64
  dot_S32x64_S64x16384_S32x16384_1_0_0_1_n_n_wf : DotDims.WF S32x64 S64x16384 S32x16384 [1] [0] [0] [1] [] []
  dot_S32x16384_S64x16384_S32x64_1_1_0_0_n_n_wf : DotDims.WF S32x16384 S64x16384 S32x64 [1] [1] [0] [0] [] []
  dot_S32x16384_S16384x1_S32x1_1_0_0_1_n_n_wf : DotDims.WF S32x16384 S16384x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S4x64x131072.size a
  hwx0_0 : ∀ i : grid0.Coords, EltTy.bits .f32 = 32 ∨ (Rect.block (s := S4x64x131072) S1x64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64.size a ≤ S4x32x64.size a
  hwx0_4 : ∀ i : grid0.Coords, EltTy.bits .f32 = 32 ∨ (Rect.block (s := S4x32x64) S1x32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x16384.size a ≤ S4x32x131072.size a
  hwx0_5 : ∀ i : grid0.Coords, EltTy.bits .f32 = 32 ∨ (Rect.block (s := S4x32x131072) S1x32x16384.size (cc0_transform_5 i) (hinb0_5 i)).WholeWords (EltTy.packing .f32)

variable [Facts₀]

def dot_S32x64_S64x16384_S32x16384_1_0_0_1_n_n : DotDims S32x64 S64x16384 S32x16384 where
  lhsContracting := [1]
  rhsContracting := [0]
  lhsNonContracting := [0]
  rhsNonContracting := [1]
  lhsBatch := []
  rhsBatch := []
  wf := dot_S32x64_S64x16384_S32x16384_1_0_0_1_n_n_wf
def dot_S32x16384_S64x16384_S32x64_1_1_0_0_n_n : DotDims S32x16384 S64x16384 S32x64 where
  lhsContracting := [1]
  rhsContracting := [1]
  lhsNonContracting := [0]
  rhsNonContracting := [0]
  lhsBatch := []
  rhsBatch := []
  wf := dot_S32x16384_S64x16384_S32x64_1_1_0_0_n_n_wf
def dot_S32x16384_S16384x1_S32x1_1_0_0_1_n_n : DotDims S32x16384 S16384x1 S32x1 where
  lhsContracting := [1]
  rhsContracting := [0]
  lhsNonContracting := [0]
  rhsNonContracting := [1]
  lhsBatch := []
  rhsBatch := []
  wf := dot_S32x16384_S16384x1_S32x1_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x32x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x32x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S4x64x32x64x64 : Shape := ⟨5, ![4, 64, 32, 64, 64]⟩
abbrev S32x64 : Shape := ⟨2, ![32, 64]⟩
abbrev S32 : Shape := ⟨1, ![32]⟩
abbrev S4x64x131072 : Shape := ⟨3, ![4, 64, 131072]⟩
abbrev S4x131072x64 : Shape := ⟨3, ![4, 131072, 64]⟩
abbrev S_ : Shape := ⟨0, ![]⟩
abbrev S4x131072 : Shape := ⟨2, ![4, 131072]⟩
abbrev S4x131072x1 : Shape := ⟨3, ![4, 131072, 1]⟩
abbrev S4x131072x32 : Shape := ⟨3, ![4, 131072, 32]⟩
abbrev S1x1x32 : Shape := ⟨3, ![1, 1, 32]⟩
abbrev S4x32x131072 : Shape := ⟨3, ![4, 32, 131072]⟩
abbrev S4x32x32x64x64 : Shape := ⟨5, ![4, 32, 32, 64, 64]⟩
abbrev S4x32x64 : Shape := ⟨3, ![4, 32, 64]⟩
abbrev S4x32 : Shape := ⟨2, ![4, 32]⟩
abbrev S4x32x1 : Shape := ⟨3, ![4, 32, 1]⟩
abbrev S1x32x64 : Shape := ⟨3, ![1, 32, 64]⟩

abbrev nBuf : Space → Nat
  | .hbm => 49
  | .vmem => 0
  | .smem => 0
  | _ => 0

abbrev bufTy : (tb : Table) → Fin (tcTables nBuf tb) → BufTy
  | .hbm, ⟨0, _⟩ => ⟨S4x64x32x64x64, .f32⟩
  | .hbm, ⟨1, _⟩ => ⟨S32x64, .f32⟩
  | .hbm, ⟨2, _⟩ => ⟨S32, .f32⟩
  | .hbm, ⟨3, _⟩ => ⟨S4x64x131072, .f32⟩
  | .hbm, ⟨4, _⟩ => ⟨S4x131072x64, .f32⟩
  | .hbm, ⟨5, _⟩ => ⟨S4x131072x64, .f32⟩
  | .hbm, ⟨6, _⟩ => ⟨S_, .f32⟩
  | .hbm, ⟨7, _⟩ => ⟨S4x131072, .f32⟩
  | .hbm, ⟨8, _⟩ => ⟨S4x131072x1, .f32⟩
  | .hbm, ⟨9, _⟩ => ⟨S32x64, .f32⟩
  | .hbm, ⟨10, _⟩ => ⟨S_, .f32⟩
  | .hbm, ⟨11, _⟩ => ⟨S32, .f32⟩
  | .hbm, ⟨12, _⟩ => ⟨S4x131072x32, .f32⟩
  | .hbm, ⟨13, _⟩ => ⟨S1x1x32, .f32⟩
  | .hbm, ⟨14, _⟩ => ⟨S4x131072x32, .f32⟩
  | .hbm, ⟨15, _⟩ => ⟨S4x131072x32, .f32⟩
  | .hbm, ⟨16, _⟩ => ⟨S4x131072x32, .f32⟩
  | .hbm, ⟨17, _⟩ => ⟨S_, .f32⟩
  | .hbm, ⟨18, _⟩ => ⟨S4x131072x32, .f32⟩
  | .hbm, ⟨19, _⟩ => ⟨S4x131072x32, .f32⟩
  | .hbm, ⟨20, _⟩ => ⟨S4x131072x32, .f32⟩
  | .hbm, ⟨21, _⟩ => ⟨S1x1x32, .f32⟩
  | .hbm, ⟨22, _⟩ => ⟨S4x131072x32, .f32⟩
  | .hbm, ⟨23, _⟩ => ⟨S4x131072x32, .f32⟩
  | .hbm, ⟨24, _⟩ => ⟨S_, .f32⟩
  | .hbm, ⟨25, _⟩ => ⟨S4x131072, .f32⟩
  | .hbm, ⟨26, _⟩ => ⟨S_, .f32⟩
  | .hbm, ⟨27, _⟩ => ⟨S4x131072, .f32⟩
  | .hbm, ⟨28, _⟩ => ⟨S4x131072, .f32⟩
  | .hbm, ⟨29, _⟩ => ⟨S4x131072x1, .f32⟩
  | .hbm, ⟨30, _⟩ => ⟨S4x131072x32, .f32⟩
  | .hbm, ⟨31, _⟩ => ⟨S4x131072x32, .f32⟩
  | .hbm, ⟨32, _⟩ => ⟨S4x131072x32, .f32⟩
  | .hbm, ⟨33, _⟩ => ⟨S_, .f32⟩
  | .hbm, ⟨34, _⟩ => ⟨S4x131072, .f32⟩
  | .hbm, ⟨35, _⟩ => ⟨S4x131072x1, .f32⟩
  | .hbm, ⟨36, _⟩ => ⟨S4x131072x32, .f32⟩
  | .hbm, ⟨37, _⟩ => ⟨S4x131072x32, .f32⟩
  | .hbm, ⟨38, _⟩ => ⟨S4x32x131072, .f32⟩
  | .hbm, ⟨39, _⟩ => ⟨S4x32x32x64x64, .f32⟩
  | .hbm, ⟨40, _⟩ => ⟨S4x32x64, .f32⟩
  | .hbm, ⟨41, _⟩ => ⟨S_, .f32⟩
  | .hbm, ⟨42, _⟩ => ⟨S4x32, .f32⟩
  | .hbm, ⟨43, _⟩ => ⟨S4x32x1, .f32⟩
  | .hbm, ⟨44, _⟩ => ⟨S1x32x64, .f32⟩
  | .hbm, ⟨45, _⟩ => ⟨S4x32x64, .f32⟩
  | .hbm, ⟨46, _⟩ => ⟨S4x32x64, .f32⟩
  | .hbm, ⟨47, _⟩ => ⟨S4x32x64, .f32⟩
  | .hbm, ⟨48, _⟩ => ⟨S4x32x64, .f32⟩
  | _, _ => ⟨S4x64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]

class Facts₀ : Prop where
  shapeCasts_S4x64x32x64x64_S4x64x131072 : S4x64x32x64x64.ShapeCasts S4x64x131072
  transposes_S4x64x131072_S4x131072x64_0_2_1 : S4x64x131072.Transposes [0, 2, 1] S4x131072x64
  reducesTo_S4x131072x64_S4x131072_d2 : S4x131072x64.ReducesTo [2] S4x131072
  h_S_ : 0 < S_.numel
  bcast_S4x131072_S4x131072x1_0_1 : S4x131072.BroadcastsInDim S4x131072x1 (![0, 1] : Fin 2 → Fin S4x131072x1.rank)
  reducesTo_S32x64_S32_d1 : S32x64.ReducesTo [1] S32
  bcast_S32_S1x1x32_2 : S32.BroadcastsInDim S1x1x32 (![2] : Fin 1 → Fin S1x1x32.rank)
  bcast_S4x131072x1_S4x131072x32_0_1_2 : S4x131072x1.BroadcastsInDim S4x131072x32 (![0, 1, 2] : Fin 3 → Fin S4x131072x32.rank)
  bcast_S1x1x32_S4x131072x32_0_1_2 : S1x1x32.BroadcastsInDim S4x131072x32 (![0, 1, 2] : Fin 3 → Fin S4x131072x32.rank)
  bcast_S_S4x131072x32 : S_.BroadcastsInDim S4x131072x32 (![] : Fin 0 → Fin S4x131072x32.rank)
  reducesTo_S4x131072x32_S4x131072_d2 : S4x131072x32.ReducesTo [2] S4x131072
  bcast_S_S4x131072 : S_.BroadcastsInDim S4x131072 (![] : Fin 0 → Fin S4x131072.rank)
  transposes_S4x131072x32_S4x32x131072_0_2_1 : S4x131072x32.Transposes [0, 2, 1] S4x32x131072
  shapeCasts_S4x32x131072_S4x32x32x64x64 : S4x32x131072.ShapeCasts S4x32x32x64x64
  reducesTo_S4x131072x32_S4x32_d1 : S4x131072x32.ReducesTo [1] S4x32
  bcast_S4x32_S4x32x1_0_1 : S4x32.BroadcastsInDim S4x32x1 (![0, 1] : Fin 2 → Fin S4x32x1.rank)
  bcast_S32x64_S1x32x64_1_2 : S32x64.BroadcastsInDim S1x32x64 (![1, 2] : Fin 2 → Fin S1x32x64.rank)
  bcast_S4x32x1_S4x32x64_0_1_2 : S4x32x1.BroadcastsInDim S4x32x64 (![0, 1, 2] : Fin 3 → Fin S4x32x64.rank)
  bcast_S1x32x64_S4x32x64_0_1_2 : S1x32x64.BroadcastsInDim S4x32x64 (![0, 1, 2] : Fin 3 → Fin S4x32x64.rank)
  dot_S4x131072x64_S32x64_S4x131072x32_2_1_01_0_n_n_wf : DotDims.WF S4x131072x64 S32x64 S4x131072x32 [2] [1] [0, 1] [0] [] []
  dot_S4x131072x32_S4x131072x64_S4x32x64_1_1_2_2_0_0_wf : DotDims.WF S4x131072x32 S4x131072x64 S4x32x64 [1] [1] [2] [2] [0] [0]

variable [Facts₀]

def dot_S4x131072x64_S32x64_S4x131072x32_2_1_01_0_n_n : DotDims S4x131072x64 S32x64 S4x131072x32 where
  lhsContracting := [2]
  rhsContracting := [1]
  lhsNonContracting := [0, 1]
  rhsNonContracting := [0]
  lhsBatch := []
  rhsBatch := []
  wf := dot_S4x131072x64_S32x64_S4x131072x32_2_1_01_0_n_n_wf
def dot_S4x131072x32_S4x131072x64_S4x32x64_1_1_2_2_0_0 : DotDims S4x131072x32 S4x131072x64 S4x32x64 where
  lhsContracting := [1]
  rhsContracting := [1]
  lhsNonContracting := [2]
  rhsNonContracting := [2]
  lhsBatch := [0]
  rhsBatch := [0]
  wf := dot_S4x131072x32_S4x131072x64_S4x32x64_1_1_2_2_0_0_wf

class Facts : Prop extends Facts₀ where

variable [Facts]
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.Spec.lean ====
/-
  The specification: what both programs compute, as functions of the three argument arrays, index by index, over the
  extended reals.

  The arguments are the features `X` (batch `b`, channel `c`, position `n`: the five-axis input with its three
  spatial axes flattened to one of 131072 positions — both programs begin with that same flattening, so it is never
  opened here), the codewords `cw` (codeword `k`, channel `c`) and one scale `sc k` per codeword.

  At every position the scaled squared distance to codeword `k` is
      logit b n k = sc k · ((Σ_c X[b,c,n]²  +  Σ_c cw[k,c]²)  −  2 · Σ_c cw[k,c] · X[b,c,n]),
  the assignment weights are its softmax over the 32 codewords, taken the numerically safe way
      A b k n = exp (logit b n k − max_k' logit b n k') / Σ_k' exp (logit b n k' − max_k'' logit b n k''),
  the first result aggregates the residuals of the features against the codewords with these weights,
      E[b,k,c] = Σ_n A b k n · X[b,c,n]  −  (Σ_n A b k n) · cw[k,c],
  and the second is the weights themselves, `coef[b,k,n] = A b k n`.

  The sums over the 131072 positions are also written tile by tile — 8 consecutive tiles of 16384 positions — since one
  program accumulates them that way: `atx_eq_tiles`, `asum_eq_tiles` (a sum of m·n terms is the sum of its m runs of n).
-/
import Idealize.ShloMosaic.PureOps.Ideal
import Idealize.ShloMosaic.PureOps.Ideal.Laws
import Idealize.ShloMosaic.Lib.ValueIdx
import Mathlib.Data.Finset.Fold
import proofs.«142732_j90125593740048_2_alg».proof.Proof.LibSumRuns

noncomputable section

namespace Cert.Spec

open Idealize.ShloMosaic Idealize.ShloMosaic.ValueIdx
open scoped BigOperators

/-- The shapes, as literals. -/
abbrev SX : Shape := ⟨3, ![4, 64, 131072]⟩
abbrev SCW : Shape := ⟨2, ![32, 64]⟩
abbrev SSC : Shape := ⟨1, ![32]⟩
abbrev SE : Shape := ⟨3, ![4, 32, 64]⟩
abbrev SA : Shape := ⟨3, ![4, 32, 131072]⟩

variable (X : SX.Idx → EReal) (cw : SCW.Idx → EReal) (sc : SSC.Idx → EReal)

/-- The two float constants of the formula, as the words both programs spell: 2.0 and the reduction's start −∞. -/
abbrev two : EReal := Ideal.ofBits .f32 0x40000000#32
abbrev ninf : EReal := Ideal.ofBits .f32 0xFF800000#32

/-- The squared norm of the feature vector at position `n` of batch `b`. -/
def sqn (b : Fin 4) (n : Fin 131072) : EReal := ∑ c : Fin 64, X (ix3 b c n) * X (ix3 b c n)
/-- The squared norm of codeword `k`. -/
def cwn (k : Fin 32) : EReal := ∑ c : Fin 64, cw (ix2 k c) * cw (ix2 k c)
/-- The inner product of codeword `k` with the feature vector at `(b, n)`. -/
def dotp (b : Fin 4) (n : Fin 131072) (k : Fin 32) : EReal := ∑ c : Fin 64, cw (ix2 k c) * X (ix3 b c n)
/-- The scaled squared distance. -/
def logit (b : Fin 4) (n : Fin 131072) (k : Fin 32) : EReal :=
  sc (ix1 k) * ((sqn X b n + cwn cw k) - two * dotp X cw b n k)
/-- Its maximum over the codewords (a fold of `max` from −∞). -/
def mx (b : Fin 4) (n : Fin 131072) : EReal :=
  (Finset.univ : Finset (Fin 32)).fold max ninf (fun k => logit X cw sc b n k)
/-- The shifted exponential, -/
def ex (b : Fin 4) (n : Fin 131072) (k : Fin 32) : EReal := Ideal.exp (logit X cw sc b n k - mx X cw sc b n)
/-- its sum over the codewords, -/
def den (b : Fin 4) (n : Fin 131072) : EReal := ∑ k : Fin 32, ex X cw sc b n k
/-- and the assignment weight: the softmax over the codewords. -/
def A (b : Fin 4) (k : Fin 32) (n : Fin 131072) : EReal := Ideal.div (ex X cw sc b n k) (den X cw sc b n)

/-- The second result: the weights, codeword-major. -/
def coef : SA.Idx → EReal := fun i => A X cw sc (i 0) (i 1) (i 2)

/-- The weighted feature sum and the weight sum over all positions, -/
def atx (b : Fin 4) (k : Fin 32) (c : Fin 64) : EReal := ∑ n : Fin 131072, A X cw sc b k n * X (ix3 b c n)
def asum (b : Fin 4) (k : Fin 32) : EReal := ∑ n : Fin 131072, A X cw sc b k n
/-- and the first result: the aggregated residuals. -/
def E : SE.Idx → EReal := fun i => atx X cw sc (i 0) (i 1) (i 2) - asum X cw sc (i 0) (i 1) * cw (ix2 (i 1) (i 2))

/-! ## The same sums, tile by tile -/

/-- Position `r` of tile `s` (total in `s`: for `s < 8` it is `s · 16384 + r`). -/
def pos (s : ℕ) (r : Fin 16384) : Fin 131072 := ⟨(s * 16384 + r.val) % 131072, Nat.mod_lt _ (by norm_num)⟩

theorem pos_val {s : ℕ} (hs : s < 8) (r : Fin 16384) : (pos s r).val = s * 16384 + r.val := by
  have := r.isLt
  show (s * 16384 + r.val) % 131072 = _
  exact Nat.mod_eq_of_lt (by omega)

/-- Tile `s`'s share of the two sums. -/
def atxTile (b : Fin 4) (s : ℕ) (k : Fin 32) (c : Fin 64) : EReal :=
  ∑ r : Fin 16384, A X cw sc b k (pos s r) * X (ix3 b c (pos s r))
def asumTile (b : Fin 4) (s : ℕ) (k : Fin 32) : EReal := ∑ r : Fin 16384, A X cw sc b k (pos s r)

/-- A sum over the 131072 positions is the sum of its 8 tiles. -/
theorem sum_tiles (f : Fin 131072 → EReal) :
    ∑ n : Fin 131072, f n = ∑ s ∈ Finset.range 8, ∑ r : Fin 16384, f (pos s r) := by
  rw [Finset.sum_range, show (∑ n : Fin 131072, f n) = ∑ n : Fin (8 * 16384), f n from rfl,
    Cert.Lib.SumRuns.sum_runs 8 16384 f]
  refine Finset.sum_congr rfl fun s _ => Finset.sum_congr rfl fun r _ => congrArg f (Fin.ext ?_)
  exact (pos_val s.isLt r).symm

theorem atx_eq_tiles (b : Fin 4) (k : Fin 32) (c : Fin 64) :
    atx X cw sc b k c = ∑ s ∈ Finset.range 8, atxTile X cw sc b s k c :=
  sum_tiles fun n => A X cw sc b k n * X (ix3 b c n)

theorem asum_eq_tiles (b : Fin 4) (k : Fin 32) :
    asum X cw sc b k = ∑ s ∈ Finset.range 8, asumTile X cw sc b s k :=
  sum_tiles fun n => A X cw sc b k n

/-- The running sums after tile `j` of batch `b`, as the two accumulators hold them (a [32,64] block and a column). -/
def atxUpTo (b : Fin 4) (j : ℕ) : (⟨2, ![32, 64]⟩ : Shape).Idx → EReal :=
  fun i => ∑ s ∈ Finset.range (j + 1), atxTile X cw sc b s (i 0) (i 1)
def asumUpTo (b : Fin 4) (j : ℕ) : (⟨2, ![32, 1]⟩ : Shape).Idx → EReal :=
  fun i => ∑ s ∈ Finset.range (j + 1), asumTile X cw sc b s (i 0)

/-- The maximum of −∞ (or any start value) with a fold of `max` from that same start is the fold. -/
theorem max_fold_self {ι : Type*} (s : Finset ι) (b : EReal) (f : ι → EReal) :
    max b (s.fold max b f) = s.fold max b f :=
  max_eq_right ((Finset.le_fold_max b).mpr (Or.inl le_rfl))

end Cert.Spec

end
-- ==== Proof.RefSide.lean ====
/-
  The reference program computes the specification.

  The reference flattens the spatial axes, moves the channel axis last, and then takes — position by position — the
  squared norms, the inner products with the codewords, the scaled distances, their softmax over the codewords and the
  two contractions over all positions. Read one stage at a time at explicit coordinates, each stage is the
  corresponding quantity of the specification of the flattened features `Xr` (the flattening itself is never opened:
  the other program starts with the same one):
    the transposed features at (b, n, c) are `Xr` at (b, c, n);
    a sum with initial value +0.0 is the plain sum (0 + s = s);
    the reference's inner product multiplies feature by codeword, the specification codeword by feature (commutativity);
    the reference's maximum is `max (−∞, fold of max from −∞)`, which is that fold (`Spec.max_fold_self`).
-/
import proofs.«142732_j90125593740048_2_alg».proof.Proof.Spec
import proofs.«142732_j90125593740048_2_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx
open scoped BigOperators

variable (x0 : (⟨S4x64x32x64x64, .f32⟩ : BufTy).Contents (Elt Ideal)) (x1 : (⟨S32x64, .f32⟩ : BufTy).Contents (Elt Ideal))
  (x2 : (⟨S32, .f32⟩ : BufTy).Contents (Elt Ideal))

/-- The features with the three spatial axes flattened to one. -/
abbrev Xr : Cert.Spec.SX.Idx → EReal := val_main_v0 (F := Ideal) x0

/-- The channel-last view at (b, n, c) is the flattened features at (b, c, n). -/
theorem v1_at (b : Fin 4) (n : Fin 131072) (c : Fin 64) :
    val_main_v1 (F := Ideal) x0 (ix3 b n c) = Xr x0 (ix3 b c n) :=
  (val_main_v1_apply x0 (ix3 b n c)).trans (congrArg (val_main_v0 (F := Ideal) x0) (funext fun a => by match a with | ⟨0, _⟩ => rfl | ⟨1, _⟩ => rfl | ⟨2, _⟩ => rfl))

/-- The squared norm of the feature vector at a position. -/
theorem sqn_at (b : Fin 4) (n : Fin 131072) :
    val_main_v3 (F := Ideal) x0 (ix2 b n) = Cert.Spec.sqn (Xr x0) b n := by
  rw [val_main_v3_apply]
  rw [val_main_cst_apply, Ideal.ofBits_def, Ideal.ofBits_zero_f32, zero_add]
  unfold Cert.Spec.sqn
  refine Finset.sum_congr rfl fun c _ => ?_
  show val_main_v1 (F := Ideal) x0 (idx_main_v3 (ix2 b n) c) * val_main_v1 (F := Ideal) x0 (idx_main_v3 (ix2 b n) c) = _
  have e : idx_main_v3 (ix2 b n) c = ix3 b n c := funext fun a => by match a with | ⟨0, _⟩ => rfl | ⟨1, _⟩ => rfl | ⟨2, _⟩ => rfl
  rw [e, v1_at]

theorem v9_at (b : Fin 4) (n : Fin 131072) (k : Fin 32) :
    val_main_v9 (F := Ideal) x0 (ix3 b n k) = Cert.Spec.sqn (Xr x0) b n :=
  (val_main_v9_apply x0 _).trans ((val_main_v4_apply x0 _).trans
    ((congrArg (val_main_v3 (F := Ideal) x0) (funext fun a => by match a with | ⟨0, _⟩ => rfl | ⟨1, _⟩ => rfl)).trans (sqn_at x0 b n)))

/-- The squared norm of a codeword. -/
theorem cwn_at (k : Fin 32) : val_main_v6 (F := Ideal) x1 (ix1 k) = Cert.Spec.cwn x1 k := by
  rw [val_main_v6_apply]
  rw [val_main_cst_0_apply, Ideal.ofBits_def, Ideal.ofBits_zero_f32, zero_add]
  unfold Cert.Spec.cwn
  refine Finset.sum_congr rfl fun c _ => ?_
  show x1 (idx_main_v6 (ix1 k) c) * x1 (idx_main_v6 (ix1 k) c) = _
  have e : idx_main_v6 (ix1 k) c = ix2 k c := funext fun a => by match a with | ⟨0, _⟩ => rfl | ⟨1, _⟩ => rfl
  rw [e]

theorem v10_at (b : Fin 4) (n : Fin 131072) (k : Fin 32) :
    val_main_v10 (F := Ideal) x1 (ix3 b n k) = Cert.Spec.cwn x1 k :=
  (val_main_v10_apply x1 _).trans ((val_main_v8_apply x1 _).trans
    ((congrArg (val_main_v6 (F := Ideal) x1) (funext fun a => by match a with | ⟨0, _⟩ => rfl)).trans (cwn_at x1 k)))

/-- The inner product of a codeword with the feature vector at a position (the factors commuted). -/
theorem dotp_at (b : Fin 4) (n : Fin 131072) (k : Fin 32) :
    val_main_v7 (F := Ideal) x0 x1 (ix3 b n k) = Cert.Spec.dotp (Xr x0) x1 b n k := by
  rw [val_main_v7_apply]
  unfold Cert.Spec.dotp
  refine Finset.sum_congr rfl fun c _ => ?_
  have el : lidx_main_v7 (ix3 b n k) c = ix3 b n c := funext fun a => by match a with | ⟨0, _⟩ => rfl | ⟨1, _⟩ => rfl | ⟨2, _⟩ => rfl
  have er : ridx_main_v7 (ix3 b n k) c = ix2 k c := funext fun a => by match a with | ⟨0, _⟩ => rfl | ⟨1, _⟩ => rfl
  rw [el, er, v1_at, mul_comm]

theorem sc_at (b : Fin 4) (n : Fin 131072) (k : Fin 32) :
    val_main_v16 (F := Ideal) x2 (ix3 b n k) = x2 (ix1 k) :=
  (val_main_v16_apply x2 _).trans ((val_main_v15_apply x2 _).trans (congrArg x2 (funext fun a => by match a with | ⟨0, _⟩ => rfl)))

theorem two_at (i : S4x131072x32.Idx) : val_main_v12 (F := Ideal) i = Cert.Spec.two :=
  (val_main_v12_apply i).trans ((val_main_cst_1_apply _).trans (Ideal.ofBits_def _))

/-- The scaled squared distance. -/
theorem logit_at (b : Fin 4) (n : Fin 131072) (k : Fin 32) :
    val_main_v17 (F := Ideal) x0 x1 x2 (ix3 b n k) = Cert.Spec.logit (Xr x0) x1 x2 b n k := by
  show val_main_v16 (F := Ideal) x2 (ix3 b n k) * ((val_main_v9 (F := Ideal) x0 (ix3 b n k) + val_main_v10 (F := Ideal) x1 (ix3 b n k))
    - val_main_v12 (F := Ideal) (ix3 b n k) * val_main_v7 (F := Ideal) x0 x1 (ix3 b n k)) = _
  rw [sc_at, v9_at, v10_at, two_at, dotp_at]
  rfl

/-- The reference's reduction by `max` over the codewords, from −∞: the fold of `max` over the 32 scaled distances. -/
theorem v18_at (b : Fin 4) (n : Fin 131072) :
    val_main_v18 (F := Ideal) x0 x1 x2 (ix2 b n) = Cert.Spec.mx (Xr x0) x1 x2 b n := by
  unfold val_main_v18
  have hR : S4x131072x32.Reduces [2] S4x131072 := by decide
  rw [Host.reduce_eq_fold_single FloatOps.maximumf _ _ reducesTo_S4x131072x32_S4x131072_d2 hR h_S_]
  rw [val_main_cst_2_apply, Ideal.ofBits_def]
  unfold Cert.Spec.mx
  refine Finset.fold_congr fun (k : Fin 32) _ => ?_
  have e : hR.lift (ix2 b n) k = ix3 b n k :=
    funext fun a => Fin.ext (by match a with | ⟨0, _⟩ => rfl | ⟨1, _⟩ => rfl | ⟨2, _⟩ => rfl)
  show val_main_v17 (F := Ideal) x0 x1 x2 (hR.lift (ix2 b n) k) = _
  rw [e]
  exact logit_at x0 x1 x2 b n k

/-- Taking the maximum with −∞ once more changes nothing. -/
theorem mx_at (b : Fin 4) (n : Fin 131072) :
    val_main_v20 (F := Ideal) x0 x1 x2 (ix2 b n) = Cert.Spec.mx (Xr x0) x1 x2 b n := by
  rw [val_main_v20_apply, Ideal.maximumf_def, v18_at, val_main_v19_apply, val_main_cst_3_apply, Ideal.ofBits_def]
  unfold Cert.Spec.mx
  exact Cert.Spec.max_fold_self _ _ _

theorem v22_at (b : Fin 4) (n : Fin 131072) (k : Fin 32) :
    val_main_v22 (F := Ideal) x0 x1 x2 (ix3 b n k) = Cert.Spec.mx (Xr x0) x1 x2 b n :=
  (val_main_v22_apply x0 x1 x2 _).trans ((val_main_v21_apply x0 x1 x2 _).trans
    ((congrArg (val_main_v20 (F := Ideal) x0 x1 x2) (funext fun a => by match a with | ⟨0, _⟩ => rfl | ⟨1, _⟩ => rfl)).trans (mx_at x0 x1 x2 b n)))

/-- The shifted exponential. -/
theorem ex_at (b : Fin 4) (n : Fin 131072) (k : Fin 32) :
    val_main_v24 (F := Ideal) x0 x1 x2 (ix3 b n k) = Cert.Spec.ex (Xr x0) x1 x2 b n k := by
  show Ideal.exp (val_main_v17 (F := Ideal) x0 x1 x2 (ix3 b n k) - val_main_v22 (F := Ideal) x0 x1 x2 (ix3 b n k)) = _
  rw [logit_at, v22_at]
  rfl

/-- Its sum over the codewords. -/
theorem den_at (b : Fin 4) (n : Fin 131072) :
    val_main_v25 (F := Ideal) x0 x1 x2 (ix2 b n) = Cert.Spec.den (Xr x0) x1 x2 b n := by
  rw [val_main_v25_apply]
  rw [val_main_cst_4_apply, Ideal.ofBits_def, Ideal.ofBits_zero_f32, zero_add]
  unfold Cert.Spec.den
  refine Finset.sum_congr rfl fun k _ => ?_
  have e : idx_main_v25 (ix2 b n) k = ix3 b n k := funext fun a => by match a with | ⟨0, _⟩ => rfl | ⟨1, _⟩ => rfl | ⟨2, _⟩ => rfl
  rw [e, ex_at]

theorem v27_at (b : Fin 4) (n : Fin 131072) (k : Fin 32) :
    val_main_v27 (F := Ideal) x0 x1 x2 (ix3 b n k) = Cert.Spec.den (Xr x0) x1 x2 b n :=
  (val_main_v27_apply x0 x1 x2 _).trans ((val_main_v26_apply x0 x1 x2 _).trans
    ((congrArg (val_main_v25 (F := Ideal) x0 x1 x2) (funext fun a => by match a with | ⟨0, _⟩ => rfl | ⟨1, _⟩ => rfl)).trans (den_at x0 x1 x2 b n)))

/-- The assignment weight. -/
theorem A_at (b : Fin 4) (n : Fin 131072) (k : Fin 32) :
    val_main_v28 (F := Ideal) x0 x1 x2 (ix3 b n k) = Cert.Spec.A (Xr x0) x1 x2 b k n := by
  rw [val_main_v28_apply, Ideal.hostDivf_def, ex_at, v27_at]
  unfold Cert.Spec.A
  rfl

/-- The weights, codeword-major: the reference's second result before its final reshape. -/
theorem coef_eq : val_main_v29 (F := Ideal) x0 x1 x2 = Cert.Spec.coef (Xr x0) x1 x2 := by
  funext i
  obtain ⟨b, k, n, rfl⟩ : ∃ (b : Fin 4) (k : Fin 32) (n : Fin 131072), i = ix3 b k n := ⟨i 0, i 1, i 2, eq_ix3 i⟩
  rw [val_main_v29_apply]
  have e : idx_main_v29 (ix3 b k n) = ix3 b n k := funext fun a => by match a with | ⟨0, _⟩ => rfl | ⟨1, _⟩ => rfl | ⟨2, _⟩ => rfl
  rw [e, A_at]
  rfl

/-- The sum of the weights over all positions. -/
theorem asum_at (b : Fin 4) (k : Fin 32) :
    val_main_v32 (F := Ideal) x0 x1 x2 (ix2 b k) = Cert.Spec.asum (Xr x0) x1 x2 b k := by
  rw [val_main_v32_apply]
  rw [val_main_cst_5_apply, Ideal.ofBits_def, Ideal.ofBits_zero_f32, zero_add]
  unfold Cert.Spec.asum
  refine Finset.sum_congr rfl fun n _ => ?_
  have e : idx_main_v32 (ix2 b k) n = ix3 b n k := funext fun a => by match a with | ⟨0, _⟩ => rfl | ⟨1, _⟩ => rfl | ⟨2, _⟩ => rfl
  rw [e, A_at]

/-- The aggregated residuals: the reference's first result. -/
theorem E_eq : val_main_v38 (F := Ideal) x0 x1 x2 = Cert.Spec.E (Xr x0) x1 x2 := by
  funext i
  obtain ⟨b, k, c, rfl⟩ : ∃ (b : Fin 4) (k : Fin 32) (c : Fin 64), i = ix3 b k c := ⟨i 0, i 1, i 2, eq_ix3 i⟩
  rw [val_main_v38_apply, val_main_v37_apply, Ideal.subf_def, Ideal.mulf_def, val_main_v31_apply, val_main_v35_apply,
    val_main_v33_apply, val_main_v36_apply, val_main_v34_apply]
  have e1 : idx_main_v33 (idx_main_v35 (ix3 b k c)) = ix2 b k := funext fun a => by match a with | ⟨0, _⟩ => rfl | ⟨1, _⟩ => rfl
  have e2 : idx_main_v34 (idx_main_v36 (ix3 b k c)) = ix2 k c := funext fun a => by match a with | ⟨0, _⟩ => rfl | ⟨1, _⟩ => rfl
  rw [e1, e2, asum_at]
  have hs : (∑ n : Fin 131072, val_main_v28 (F := Ideal) x0 x1 x2 (lidx_main_v31 (ix3 b k c) n)
      * val_main_v1 (F := Ideal) x0 (ridx_main_v31 (ix3 b k c) n)) = Cert.Spec.atx (Xr x0) x1 x2 b k c := by
    unfold Cert.Spec.atx
    refine Finset.sum_congr rfl fun n _ => ?_
    have el : lidx_main_v31 (ix3 b k c) n = ix3 b n k := funext fun a => by match a with | ⟨0, _⟩ => rfl | ⟨1, _⟩ => rfl | ⟨2, _⟩ => rfl
    have er : ridx_main_v31 (ix3 b k c) n = ix3 b n c := funext fun a => by match a with | ⟨0, _⟩ => rfl | ⟨1, _⟩ => rfl | ⟨2, _⟩ => rfl
    rw [el, er, A_at, v1_at]
  rw [hs]
  rfl

end Cert.RefSide

end
-- ==== Proof.KPieces.lean ====
/-
  What one run of the kernel body leaves behind, as values.

  The body runs in one of three ways, by the tile's place in its batch: the first tile (A) zeroes the two accumulators
  before adding, a middle tile (B) only adds, the last tile (C) adds and then writes the first result's block. In every
  case the weights' block is stored whole from the softmax of the point's input blocks, and each accumulator is stored
  whole from its previous contents plus this tile's partial sum. Each store covers its buffer, so what the buffer holds
  afterwards is that one store's value, the loads inside it reading whole buffers.
-/
import proofs.«142732_j90125593740048_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (c : Dev nD) (i : grid0.Coords) (arg2 : Memref sig .tc .vmem S1x64x16384 .f32) (harg2 : arg2.IsWhole) (arg3 : Memref sig .tc .vmem S32x64 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S1x32x64 .f32) (harg6 : arg6.IsWhole) (arg7 : Memref sig .tc .vmem S1x32x16384 .f32) (harg7 : arg7.IsWhole) (arg8 : Memref sig .tc .vmem S32x64 .f32) (harg8 : arg8.IsWhole) (arg9 : Memref sig .tc .vmem S32x1 .f32) (harg9 : arg9.IsWhole)
  (x0 : Vec F S1x64x16384 .f32) (x1 : Vec F S32x64 .f32) (x2 : Vec F S32x1 .f32) (x3 : Vec F S32x1 .f32)
  (xs0 : Vec F S32x64 .f32) (xs1 : Vec F S32x1 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the weights' block is the softmax payload of the point's four input blocks. -/
theorem out5_A (hc0 : cond0_0 i) (hc1 : ¬cond0_1 i) :
    out0_A_5 c i arg2 harg2 arg3 harg3 arg4 harg4 arg5 harg5 arg6 harg6 arg7 harg7 arg8 harg8 arg9 harg9 hc0 hc1 x0 x1 x2 x3 = k0_pay9 x0 x1 x2 x3 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz3]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case A: the first accumulator ends at the zero block plus this tile's weighted feature sum. -/
theorem sout0_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay3 (k0_pay11 x0 x1 x2 x3) (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S32x64) hz2, View.readCov_unit_zero (S := S32x64) _ hz2]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case A: the second accumulator ends at the zero column plus this tile's weight sum. -/
theorem sout1_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay4 (k0_pay12 x0 x1 x2 x3) (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S32x1) hz2, View.readCov_unit_zero (S := S32x1) _ hz2]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case B: the weights' block is the softmax payload of the point's four input blocks. -/
theorem out5_B (hc0 : ¬cond0_0 i) (hc1 : ¬cond0_1 i) :
    out0_B_5 c i arg2 harg2 arg3 harg3 arg4 harg4 arg5 harg5 arg6 harg6 arg7 harg7 arg8 harg8 arg9 harg9 hc0 hc1 x0 x1 x2 x3 xs0 xs1 = k0_pay9 x0 x1 x2 x3 := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case B: the first accumulator ends at what the point before left plus this tile's weighted feature sum. -/
theorem sout0_B (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 = k0_pay3 (k0_pay11 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case B: the second accumulator ends at what the point before left plus this tile's weight sum. -/
theorem sout1_B (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 = k0_pay4 (k0_pay12 x0 x1 x2 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case C: the weights' block is the softmax payload of the point's four input blocks. -/
theorem out5_C (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 xs0 xs1 = k0_pay9 x0 x1 x2 x3 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case C: the first accumulator ends at what the point before left plus this tile's weighted feature sum. -/
theorem sout0_C (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 = k0_pay3 (k0_pay11 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case C: the second accumulator ends at what the point before left plus this tile's weight sum. -/
theorem sout1_C (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 = k0_pay4 (k0_pay12 x0 x1 x2 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]

/-- Case C (the last tile of a batch): the first result's block is the residual aggregate of the two accumulators as this
    point leaves them and the codewords. -/
theorem out4_C (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1
      = k0_pay5 x1 (k0_pay3 (k0_pay11 x0 x1 x2 x3) xs0) (k0_pay4 (k0_pay12 x0 x1 x2 x3) xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readAt_eq_ld, harg2.read_unread, harg3.read_unread, harg4.read_unread, harg5.read_unread, harg8.read_unread, harg9.read_unread, View.ld_unit_zero (S := S1x64x16384) hz3, View.ld_unit_zero (S := S32x64) hz2, View.ld_unit_zero (S := S32x1) hz2]
  rw [View.readCov_unit_zero (S := S32x64) _ hz2, View.readCov_unit_zero (S := S32x1) _ hz2]

end Cert.KernelIdeal.Pieces

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPayload.lean ====
/-
  The body's arithmetic, read at an index over the extended reals.

  One grid point sees a tile: 64 channels × 16384 positions of one batch (`x0`, with a leading unit axis), the
  codewords `x1`, the scales as a column `x2` and the codewords' squared norms as a column `x3`. Its stores' values
  are the generated pure terms `k0_pay8` … `k0_pay12`; here they are cut into stages named after what they are —
  squared norms of the tile's positions, inner products with the codewords, scaled distances, their column maximum,
  the shifted exponentials, their column sums — and each stage is read at explicit coordinates (codeword `k`, channel
  `c`, position `r` in the tile):
    a change of float format is the identity; a product into a zero accumulator is the sum over the contracted axis;
    a sum along the rows of a [m, n] block at column `r` is the sum over the m entries of that column;
    a column broadcast along the columns reads its one entry of the row, a row broadcast down the rows its one entry
    of the column.
  Under the hypotheses that tie the blocks to the whole arrays (the tile is batch `b`'s positions `pos s r`; the columns
  are the scales and the codewords' squared norms), the stored block of weights is the specification's `A` on the tile,
  and the two partial contractions are the tile's shares `atxTile`, `asumTile` of the specification's sums.
-/
import proofs.«142732_j90125593740048_2_alg».proof.Proof.Spec
import proofs.«142732_j90125593740048_2_alg».proof.Proof.LibColumnBroadcast
import proofs.«142732_j90125593740048_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open scoped BigOperators

variable (x0 : Vec Ideal S1x64x16384 .f32) (x1 : Vec Ideal S32x64 .f32) (x2 x3 : Vec Ideal S32x1 .f32)

/-! ## The tile -/

/-- The tile with its unit axis dropped: channel `c`, position `r`. -/
theorem tile_at (c : Fin 64) (r : Fin 16384) : k0_pay6 (F := Ideal) x0 (ix2 c r) = x0 (ix3 (0 : Fin 1) c r) := by
  unfold k0_pay6
  exact shapeCast_1ab_ab_apply x0 shapeCasts_S1x64x16384_S64x16384 c r

/-- The same in the narrower float format: at the extended reals a change of format is the identity. -/
theorem tile16_at (c : Fin 64) (r : Fin 16384) : k0_pay7 (F := Ideal) x0 (ix2 c r) = x0 (ix3 (0 : Fin 1) c r) :=
  tile_at x0 c r

/-! ## The stages of the softmax -/

/-- Squared norms of the tile's positions, one row repeated for the 32 codewords. -/
def sqB : FVec Ideal S32x16384 .f32 :=
  broadcastTo S32x16384 (shapeCast S1x16384 (multiReduction (F := Ideal) .add [0] S16384 (mulf (k0_pay6 (F := Ideal) x0) (k0_pay6 (F := Ideal) x0))
    0x00000000#32 reduces_S64x16384_S16384 (.inl rfl) rfl) shapeCasts_S16384_S1x16384) broadcasts_S1x16384_S32x16384

/-- The codewords' squared norms, one column repeated for the 16384 positions. -/
def c2B : FVec Ideal S32x16384 .f32 :=
  broadcastTo S32x16384 (shapeCast S32x1 x3 shapeCasts_S32x1_S32x1) broadcasts_S32x1_S32x16384

/-- The scales, likewise. -/
def scB : FVec Ideal S32x16384 .f32 :=
  broadcastTo S32x16384 (shapeCast S32x1 x2 shapeCasts_S32x1_S32x1) broadcasts_S32x1_S32x16384

/-- The inner products of the codewords with the tile's positions. -/
def dotB : FVec Ideal S32x16384 .f32 :=
  matmul dot_S32x64_S64x16384_S32x16384_1_0_0_1_n_n none (truncf .bf16 x1 bitsLt_bf16_f32 : FVec Ideal S32x64 .bf16)
    (k0_pay7 (F := Ideal) x0) (constant (F := Ideal) S32x16384 .f32 0x00000000#32)

/-- The scaled squared distances. -/
def lgB : FVec Ideal S32x16384 .f32 :=
  mulf (scB x2) (subf (addf (sqB x0) (c2B x3))
    (mulf (broadcast S32x16384 (Scalar.ofBits (F := Ideal) .f32 0x40000000#32)) (dotB x0 x1)))

/-- Their maximum over the codewords, one row repeated. -/
def mxB : FVec Ideal S32x16384 .f32 :=
  broadcastTo S32x16384 (shapeCast S1x16384 (multiReduction (F := Ideal) .maximumf [0] S16384 (lgB x0 x1 x2 x3)
    0xFF800000#32 reduces_S32x16384_S16384 (.inl rfl) rfl) shapeCasts_S16384_S1x16384) broadcasts_S1x16384_S32x16384

/-- The shifted exponentials. -/
def exB : FVec Ideal S32x16384 .f32 := exp (subf (lgB x0 x1 x2 x3) (mxB x0 x1 x2 x3))

/-- Their sum over the codewords, one row repeated. -/
def dnB : FVec Ideal S32x16384 .f32 :=
  broadcastTo S32x16384 (shapeCast S1x16384 (multiReduction (F := Ideal) .add [0] S16384 (exB x0 x1 x2 x3)
    0x00000000#32 reduces_S32x16384_S16384 (.inl rfl) rfl) shapeCasts_S16384_S1x16384) broadcasts_S1x16384_S32x16384

/-- The weights' payload is the quotient of the last two stages. -/
theorem pay8_eq : k0_pay8 (F := Ideal) x0 x1 x2 x3 = divf (exB x0 x1 x2 x3) (dnB x0 x1 x2 x3) := rfl

/-! ## The stages at coordinates, against the specification -/

variable (X : Cert.Spec.SX.Idx → EReal) (cw : Cert.Spec.SCW.Idx → EReal) (sc : Cert.Spec.SSC.Idx → EReal)
  (b : Fin 4) (s : ℕ)

/-- A row vector lifted to a one-row block and repeated down the rows reads its entry of the column. -/
theorem rowB_at (v : FVec Ideal S16384 .f32) (k : Fin 32) (r : Fin 16384) :
    broadcastTo S32x16384 (shapeCast S1x16384 v shapeCasts_S16384_S1x16384) broadcasts_S1x16384_S32x16384 (ix2 k r) = v (ix1 r) :=
  (broadcastTo_1b_ab_apply _ broadcasts_S1x16384_S32x16384 k r).trans
    (shapeCast_a_1a_apply v shapeCasts_S16384_S1x16384 (0 : Fin 1) r)

/-- A column repeated across the columns reads its entry of the row. -/
theorem colB_at (v : Vec Ideal S32x1 .f32) (k : Fin 32) (r : Fin 16384) :
    broadcastTo S32x16384 (shapeCast S32x1 v shapeCasts_S32x1_S32x1) broadcasts_S32x1_S32x16384 (ix2 k r) = v (ix2 k (0 : Fin 1)) := by
  rw [shapeCast_self]
  exact broadcastTo_a1_ab_apply v broadcasts_S32x1_S32x16384 k r

theorem sqB_at (hx : ∀ (c : Fin 64) (r : Fin 16384), x0 (ix3 (0 : Fin 1) c r) = X (ix3 b c (Cert.Spec.pos s r)))
    (k : Fin 32) (r : Fin 16384) : sqB x0 (ix2 k r) = Cert.Spec.sqn X b (Cert.Spec.pos s r) := by
  unfold sqB
  refine (rowB_at _ k r).trans ?_
  refine (Ideal.multiReduction_add_single _ _ reduces_S64x16384_S16384 (.inl rfl) rfl (ix1 r)).trans ?_
  unfold Cert.Spec.sqn
  show (∑ c : Fin 64, k0_pay6 (F := Ideal) x0 (reduces_S64x16384_S16384.lift (ix1 r) c)
      * k0_pay6 (F := Ideal) x0 (reduces_S64x16384_S16384.lift (ix1 r) c)) = _
  refine Finset.sum_congr rfl fun c _ => ?_
  have e : reduces_S64x16384_S16384.lift (ix1 r) c = ix2 c r :=
    funext fun a => Fin.ext (by match a with | ⟨0, _⟩ => rfl | ⟨1, _⟩ => rfl)
  rw [e, tile_at, hx]

theorem c2B_at (hc2 : ∀ k : Fin 32, x3 (ix2 k (0 : Fin 1)) = Cert.Spec.cwn cw k) (k : Fin 32) (r : Fin 16384) :
    c2B x3 (ix2 k r) = Cert.Spec.cwn cw k := (colB_at x3 k r).trans (hc2 k)

theorem scB_at (hsc : ∀ k : Fin 32, x2 (ix2 k (0 : Fin 1)) = sc (ix1 k)) (k : Fin 32) (r : Fin 16384) :
    scB x2 (ix2 k r) = sc (ix1 k) := (colB_at x2 k r).trans (hsc k)

theorem dotB_at (hx : ∀ (c : Fin 64) (r : Fin 16384), x0 (ix3 (0 : Fin 1) c r) = X (ix3 b c (Cert.Spec.pos s r)))
    (hcw : ∀ (k : Fin 32) (c : Fin 64), x1 (ix2 k c) = cw (ix2 k c)) (k : Fin 32) (r : Fin 16384) :
    dotB x0 x1 (ix2 k r) = Cert.Spec.dotp X cw b (Cert.Spec.pos s r) k := by
  unfold dotB
  simp only [matmul]
  rw [Ideal.matmul_constant_zero_apply,
    ← Equiv.sum_comp (contrEquiv1 dot_S32x64_S64x16384_S32x16384_1_0_0_1_n_n 64 rfl rfl).symm]
  unfold Cert.Spec.dotp
  refine Finset.sum_congr rfl fun c _ => ?_
  have hk := contrEquiv1_symm_val dot_S32x64_S64x16384_S32x16384_1_0_0_1_n_n 64 rfl rfl c
  have el : dot_S32x64_S64x16384_S32x16384_1_0_0_1_n_n.lhsIdx (ix2 k r)
      ((contrEquiv1 dot_S32x64_S64x16384_S32x16384_1_0_0_1_n_n 64 rfl rfl).symm c) = ix2 k c :=
    funext fun a => Fin.ext (by
      match a with
      | ⟨0, _⟩ => rfl
      | ⟨1, _⟩ => exact hk)
  have er : dot_S32x64_S64x16384_S32x16384_1_0_0_1_n_n.rhsIdx (ix2 k r)
      ((contrEquiv1 dot_S32x64_S64x16384_S32x16384_1_0_0_1_n_n 64 rfl rfl).symm c) = ix2 c r :=
    funext fun a => Fin.ext (by
      match a with
      | ⟨0, _⟩ => exact hk
      | ⟨1, _⟩ => rfl)
  rw [el, er, truncf_apply, tile16_at, hx, hcw]

/-! ## The softmax on the tile -/

theorem lgB_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) (r : Fin 16384) : lgB x0 x1 x2 x3 (ix2 k r) = Cert.Spec.logit X cw sc b (Cert.Spec.pos s r) k := by
  unfold lgB
  show scB x2 (ix2 k r) * ((sqB x0 (ix2 k r) + c2B x3 (ix2 k r)) - Ideal.ofBits .f32 0x40000000#32 * dotB x0 x1 (ix2 k r)) = _
  rw [scB_at x2 sc hsc, sqB_at x0 X b s hx, c2B_at x3 cw hc2, dotB_at x0 x1 X cw b s hx hcw]
  rfl

/-- The maximum over the codewords: the fold of `max` from −∞ over the 32 scaled distances of the column. -/
theorem mxB_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) (r : Fin 16384) : mxB x0 x1 x2 x3 (ix2 k r) = Cert.Spec.mx X cw sc b (Cert.Spec.pos s r) := by
  unfold mxB
  refine (rowB_at _ k r).trans ?_
  refine (Ideal.multiReduction_maximumf_single _ _ reduces_S32x16384_S16384 (.inl rfl) rfl (ix1 r)).trans ?_
  unfold Cert.Spec.mx
  show (Finset.univ : Finset (Fin 32)).fold max Cert.Spec.ninf
    (fun k' : Fin 32 => lgB x0 x1 x2 x3 (reduces_S32x16384_S16384.lift (ix1 r) k')) = _
  refine Finset.fold_congr fun k' _ => ?_
  have e : reduces_S32x16384_S16384.lift (ix1 r) k' = ix2 k' r :=
    funext fun a => Fin.ext (by match a with | ⟨0, _⟩ => rfl | ⟨1, _⟩ => rfl)
  rw [e]
  exact lgB_at x0 x1 x2 x3 X cw sc b s hx hcw hsc hc2 k' r

theorem exB_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) (r : Fin 16384) : exB x0 x1 x2 x3 (ix2 k r) = Cert.Spec.ex X cw sc b (Cert.Spec.pos s r) k := by
  show Ideal.exp (lgB x0 x1 x2 x3 (ix2 k r) - mxB x0 x1 x2 x3 (ix2 k r)) = _
  rw [lgB_at x0 x1 x2 x3 X cw sc b s hx hcw hsc hc2, mxB_at x0 x1 x2 x3 X cw sc b s hx hcw hsc hc2]
  rfl

theorem dnB_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) (r : Fin 16384) : dnB x0 x1 x2 x3 (ix2 k r) = Cert.Spec.den X cw sc b (Cert.Spec.pos s r) := by
  unfold dnB
  refine (rowB_at _ k r).trans ?_
  refine (Ideal.multiReduction_add_single _ _ reduces_S32x16384_S16384 (.inl rfl) rfl (ix1 r)).trans ?_
  unfold Cert.Spec.den
  show (∑ k' : Fin 32, exB x0 x1 x2 x3 (reduces_S32x16384_S16384.lift (ix1 r) k')) = _
  refine Finset.sum_congr rfl fun k' _ => ?_
  have e : reduces_S32x16384_S16384.lift (ix1 r) k' = ix2 k' r :=
    funext fun a => Fin.ext (by match a with | ⟨0, _⟩ => rfl | ⟨1, _⟩ => rfl)
  rw [e]
  exact exB_at x0 x1 x2 x3 X cw sc b s hx hcw hsc hc2 k' r

/-- The block of weights the body computes is the specification's weights on the tile. -/
theorem pay8_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) (r : Fin 16384) :
    k0_pay8 (F := Ideal) x0 x1 x2 x3 (ix2 k r) = Cert.Spec.A X cw sc b k (Cert.Spec.pos s r) := by
  rw [pay8_eq, divf_apply, exB_at x0 x1 x2 x3 X cw sc b s hx hcw hsc hc2, dnB_at x0 x1 x2 x3 X cw sc b s hx hcw hsc hc2]
  unfold Cert.Spec.A
  rfl

/-- The same block as stored, with its leading unit axis. -/
theorem pay9_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (u : Fin 1) (k : Fin 32) (r : Fin 16384) :
    k0_pay9 (F := Ideal) x0 x1 x2 x3 (ix3 u k r) = Cert.Spec.A X cw sc b k (Cert.Spec.pos s r) := by
  unfold k0_pay9
  exact (shapeCast_ab_1ab_apply _ shapeCasts_S32x16384_S1x32x16384 u k r).trans (pay8_at x0 x1 x2 x3 X cw sc b s hx hcw hsc hc2 k r)

/-! ## The two partial contractions over the tile's positions -/

/-- The weights in the narrower float format are the weights. -/
theorem pay10_at (i : S32x16384.Idx) :
    k0_pay10 (F := Ideal) x0 x1 x2 x3 i = k0_pay8 (F := Ideal) x0 x1 x2 x3 i :=
  truncf_apply (k0_pay8 (F := Ideal) x0 x1 x2 x3) bitsLt_bf16_f32 i

/-- Weights times features, contracted over the tile's positions. -/
def atxP : FVec Ideal S32x64 .f32 :=
  matmul dot_S32x16384_S64x16384_S32x64_1_1_0_0_n_n none (k0_pay10 (F := Ideal) x0 x1 x2 x3) (k0_pay7 (F := Ideal) x0)
    (constant (F := Ideal) S32x64 .f32 0x00000000#32)
theorem pay11_eq : k0_pay11 (F := Ideal) x0 x1 x2 x3 = atxP x0 x1 x2 x3 := rfl

/-- Weights times a column of ones, contracted over the tile's positions. -/
def asumP : FVec Ideal S32x1 .f32 :=
  matmul dot_S32x16384_S16384x1_S32x1_1_0_0_1_n_n none (k0_pay10 (F := Ideal) x0 x1 x2 x3)
    (broadcast S16384x1 (Scalar.ofBits (F := Ideal) .bf16 0x3F80#16) : FVec Ideal S16384x1 .bf16)
    (constant (F := Ideal) S32x1 .f32 0x00000000#32)
theorem pay12_eq : k0_pay12 (F := Ideal) x0 x1 x2 x3 = asumP x0 x1 x2 x3 := rfl

/-- The weighted feature sum over the tile: the tile's share of the specification's sum. -/
theorem pay11_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) (c : Fin 64) :
    k0_pay11 (F := Ideal) x0 x1 x2 x3 (ix2 k c) = Cert.Spec.atxTile X cw sc b s k c := by
  rw [pay11_eq]
  unfold atxP
  simp only [matmul]
  rw [Ideal.matmul_constant_zero_apply, ← Equiv.sum_comp (contrEquiv1 dot_S32x16384_S64x16384_S32x64_1_1_0_0_n_n 16384 rfl rfl).symm]
  unfold Cert.Spec.atxTile
  refine Finset.sum_congr rfl fun r _ => ?_
  have hk := contrEquiv1_symm_val dot_S32x16384_S64x16384_S32x64_1_1_0_0_n_n 16384 rfl rfl r
  have el : dot_S32x16384_S64x16384_S32x64_1_1_0_0_n_n.lhsIdx (ix2 k c) ((contrEquiv1 dot_S32x16384_S64x16384_S32x64_1_1_0_0_n_n 16384 rfl rfl).symm r) = ix2 k r :=
    funext fun a => Fin.ext (by
      match a with
      | ⟨0, _⟩ => rfl
      | ⟨1, _⟩ => exact hk)
  have er : dot_S32x16384_S64x16384_S32x64_1_1_0_0_n_n.rhsIdx (ix2 k c) ((contrEquiv1 dot_S32x16384_S64x16384_S32x64_1_1_0_0_n_n 16384 rfl rfl).symm r) = ix2 c r :=
    funext fun a => Fin.ext (by
      match a with
      | ⟨0, _⟩ => rfl
      | ⟨1, _⟩ => exact hk)
  rw [el, er]
  rw [pay10_at, pay8_at x0 x1 x2 x3 X cw sc b s hx hcw hsc hc2, tile16_at, hx]

/-- The narrower format's word for 1.0 is the number one. -/
theorem one_bf16 : Scalar.ofBits (F := Ideal) .bf16 0x3F80#16 = (1 : EReal) :=
  IdealRules.sign_bit.ideal_onePat .bf16

/-- The weight sum over the tile (each weight times one): the tile's share of the specification's weight sum. -/
theorem pay12_at (hx : ∀ (c : Fin 64) (r : Fin 16384), x0 (ix3 (0 : Fin 1) c r) = X (ix3 b c (Cert.Spec.pos s r)))
    (hcw : ∀ (k : Fin 32) (c : Fin 64), x1 (ix2 k c) = cw (ix2 k c))
    (hsc : ∀ k : Fin 32, x2 (ix2 k (0 : Fin 1)) = sc (ix1 k))
    (hc2 : ∀ k : Fin 32, x3 (ix2 k (0 : Fin 1)) = Cert.Spec.cwn cw k)
    (k : Fin 32) :
    k0_pay12 (F := Ideal) x0 x1 x2 x3 (ix2 k (0 : Fin 1)) = Cert.Spec.asumTile X cw sc b s k := by
  rw [pay12_eq]
  unfold asumP
  simp only [matmul]
  rw [Ideal.matmul_constant_zero_apply, ← Equiv.sum_comp (contrEquiv1 dot_S32x16384_S16384x1_S32x1_1_0_0_1_n_n 16384 rfl rfl).symm]
  unfold Cert.Spec.asumTile
  refine Finset.sum_congr rfl fun r _ => ?_
  have hk := contrEquiv1_symm_val dot_S32x16384_S16384x1_S32x1_1_0_0_1_n_n 16384 rfl rfl r
  have el : dot_S32x16384_S16384x1_S32x1_1_0_0_1_n_n.lhsIdx (ix2 k (0 : Fin 1)) ((contrEquiv1 dot_S32x16384_S16384x1_S32x1_1_0_0_1_n_n 16384 rfl rfl).symm r) = ix2 k r :=
    funext fun a => Fin.ext (by
      match a with
      | ⟨0, _⟩ => rfl
      | ⟨1, _⟩ => exact hk)
  rw [el]
  rw [pay10_at, pay8_at x0 x1 x2 x3 X cw sc b s hx hcw hsc hc2, broadcast_apply, one_bf16, mul_one]

/-! ## The accumulators' and the first result's stores -/

/-- The reset stores zeros. -/
theorem pay1_at (i : S32x64.Idx) : k0_pay1 (F := Ideal) i = 0 := by
  unfold k0_pay1; rw [shapeCast_self]; exact Ideal.ofBits_zero_f32
theorem pay2_at (i : S32x1.Idx) : k0_pay2 (F := Ideal) i = 0 := by
  unfold k0_pay2; rw [shapeCast_self]; exact Ideal.ofBits_zero_f32

/-- An accumulation stores the previous contents plus the partial sum. -/
theorem pay3_at (p : FVec Ideal S32x64 .f32) (a : Vec Ideal S32x64 .f32) (i : S32x64.Idx) :
    k0_pay3 (F := Ideal) p a i = a i + p i := by
  unfold k0_pay3; rw [shapeCast_self]; rfl
theorem pay4_at (p : FVec Ideal S32x1 .f32) (a : Vec Ideal S32x1 .f32) (i : S32x1.Idx) :
    k0_pay4 (F := Ideal) p a i = a i + p i := by
  unfold k0_pay4; rw [shapeCast_self]; rfl

/-- The first result's block: the weighted feature sum minus the weight sum (a column, repeated across the channels)
    times the codeword. -/
theorem pay5_at (cwv : Vec Ideal S32x64 .f32) (atxv : Vec Ideal S32x64 .f32) (asumv : Vec Ideal S32x1 .f32)
    (u : Fin 1) (k : Fin 32) (c : Fin 64) :
    k0_pay5 (F := Ideal) cwv atxv asumv (ix3 u k c) = atxv (ix2 k c) - asumv (ix2 k (0 : Fin 1)) * cwv (ix2 k c) := by
  unfold k0_pay5
  refine (shapeCast_ab_1ab_apply _ shapeCasts_S32x64_S1x32x64 u k c).trans ?_
  show atxv (ix2 k c) - broadcastTo S32x64 asumv broadcasts_S32x1_S32x64 (ix2 k c) * cwv (ix2 k c) = _
  rw [broadcastTo_a1_ab_apply asumv broadcasts_S32x1_S32x64 k c]

end Cert.KernelIdeal.Payload

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KRun.lean ====
/-
  From the runs of the body to the two result arrays.

  The grid has 32 points: point `t` works on batch `t / 8` and on tile `t % 8` of its 131072 positions. At a point the
  feature window reads channels × the tile's 16384 positions of that batch; the codewords, the scales (as a column)
  and the codewords' squared norms (a column the host computed before the region) are read whole.
    * The weights' window is written back at every point: the softmax of the point's tile. Its blocks tile the
      [4, 32, 131072] array, so the array ends holding the specification's weights.
    * The two accumulators are carried from point to point within a batch: zeroed at the batch's first tile, then each
      tile's partial sums added. By induction on the point they hold the sums over the tiles 0 … t % 8 of the batch.
    * The first result's window is written back at a batch's last tile only, from the accumulators as that point
      leaves them — the sums over all 8 tiles, that is over all positions: the specification's residual aggregate.
  The host operation after the region reshapes the weights' array; the other program ends with the same reshape.
-/
import proofs.«142732_j90125593740048_2_alg».proof.Proof.Spec
import proofs.«142732_j90125593740048_2_alg».proof.Proof.KPieces
import proofs.«142732_j90125593740048_2_alg».proof.Proof.KPayload
import proofs.«142732_j90125593740048_2_alg».proof.Proof.LibKeepdimsColumn
import proofs.«142732_j90125593740048_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.RunValue

open Cert.KernelIdeal Cert.KernelIdeal.Gen

variable (m : (ℓ : Loc nD τ sig) → Buf (Elt Ideal) ℓ) (ρ : Dev nD → PrngReg)

/-- The batch a point works on. -/
def bOf (t : Fin cfg0.N) : Fin 4 := ⟨t.val / 8, by have h : t.val < 32 := lt_of_lt_of_eq t.isLt N_0; omega⟩

/-- The three arguments as the specification takes them: the features flattened (as the region finds them), the
    codewords and the scales. -/
abbrev XA (c : Dev nD) : Cert.Spec.SX.Idx → EReal := V m c main_v0
abbrev CW (c : Dev nD) : Cert.Spec.SCW.Idx → EReal := m ((c : Thread nD τ).loc main_arg1)
abbrev SC (c : Dev nD) : Cert.Spec.SSC.Idx → EReal := m ((c : Thread nD τ).loc main_arg2)

/-! ## What the host operations before the region leave -/

theorem V_v0 (c : Dev nD) : V m c main_v0
    = shapeCast S4x64x131072 (m ((c : Thread nD τ).loc main_arg0)) shapeCasts_S4x64x32x64x64_S4x64x131072 := by
  show StableHlo.after hostOps0 (fun b => m (c, b)) (Proc.devRef .tc main_v0) = _
  after_results
  try rfl

theorem V_v1 (c : Dev nD) : V m c main_v1
    = shapeCast S32x1 (m ((c : Thread nD τ).loc main_arg2)) shapeCasts_S32_S32x1 := by
  show StableHlo.after hostOps0 (fun b => m (c, b)) (Proc.devRef .tc main_v1) = _
  after_results
  try rfl

theorem V_v4 (c : Dev nD) : V m c main_v4
    = broadcastInDim S32x1 ![0] bcast_S32_S32x1_0 (Host.reduceAdd (F := Ideal)
        (mulf (m ((c : Thread nD τ).loc main_arg1)) (m ((c : Thread nD τ).loc main_arg1)))
        (constant (F := Ideal) S_ .f32 0x00000000#32) reducesTo_S32x64_S32_d1 h_S_) := by
  show StableHlo.after hostOps0 (fun b => m (c, b)) (Proc.devRef .tc main_v4) = _
  after_results
  try rfl

/-- The scales column at row `k` is the scale of codeword `k`. -/
theorem v1_at (c : Dev nD) (k : Fin 32) : V m c main_v1 (ix2 k (0 : Fin 1)) = SC m c (ix1 k) := by
  rw [V_v1]
  exact Cert.LibKeepdims.shapeCast_a_a1_apply _ shapeCasts_S32_S32x1 k (0 : Fin 1)

/-- The host's sum of squares along the channels, kept as a column: at row `k` the squared norm of codeword `k`. -/
theorem c2col_at (cwv : FVec Ideal S32x64 .f32) (k : Fin 32) :
    broadcastInDim S32x1 ![0] bcast_S32_S32x1_0 (Host.reduceAdd (F := Ideal) (mulf cwv cwv)
      (constant (F := Ideal) S_ .f32 0x00000000#32) reducesTo_S32x64_S32_d1 h_S_) (ix2 k (0 : Fin 1))
      = Cert.Spec.cwn cwv k := by
  have hR : S32x64.Reduces [1] S32 := by decide
  refine (broadcastInDim_apply ![0] bcast_S32_S32x1_0 _ (ix2 k (0 : Fin 1)) (ix1 k) (fun a => by
    match a with | ⟨0, _⟩ => rfl)).trans ?_
  simp only [Host.reduceAdd, Ideal.hostReduceAdd_def]
  rw [Ideal.hostReduceAdd_single reducesTo_S32x64_S32_d1 hR, constant_apply, Ideal.ofBits_zero_f32, zero_add]
  unfold Cert.Spec.cwn
  refine Finset.sum_congr rfl fun (c' : Fin 64) _ => ?_
  have e : hR.lift (ix1 k) c' = ix2 k c' :=
    funext fun a => Fin.ext (by match a with | ⟨0, _⟩ => rfl | ⟨1, _⟩ => rfl)
  rw [e, mulf_apply]

/-- The column the host computed before the region, at row `k`: the squared norm of codeword `k`. -/
theorem v4_at (c : Dev nD) (k : Fin 32) : V m c main_v4 (ix2 k (0 : Fin 1)) = Cert.Spec.cwn (CW m c) k :=
  (congrFun (V_v4 m c) (ix2 k (0 : Fin 1))).trans (c2col_at (CW m c) k)

/-! ## The windows' blocks over the grid -/

/-- The printed index maps, decided over the 32 points: the feature and weight windows sit at (batch, 0, tile), the
    first result's at (batch, 0, 0), the three resident inputs at the origin. -/
theorem idx0 : ∀ t : Fin cfg0.N, win0_0.index t (0 : Fin 3) = t.val / 8 ∧ win0_0.index t (1 : Fin 3) = 0
    ∧ win0_0.index t (2 : Fin 3) = t.val % 8 :=
  (by decide +kernel : ∀ t : Fin grid0.N, _)
theorem idx5 : ∀ t : Fin cfg0.N, win0_5.index t (0 : Fin 3) = t.val / 8 ∧ win0_5.index t (1 : Fin 3) = 0
    ∧ win0_5.index t (2 : Fin 3) = t.val % 8 :=
  (by decide +kernel : ∀ t : Fin grid0.N, _)
theorem idx4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)
theorem idx123 : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The feature block at a point: channel `c'`, place `r` is the flattened features at the point's batch and the
    tile's position `r`. -/
theorem blk0_at (c : Dev nD) (t : Fin cfg0.N) (c' : Fin 64) (r : Fin 16384) :
    (iblk m c 0 t : Vec Ideal S1x64x16384 .f32) (ix3 (0 : Fin 1) c' r)
      = XA m c (ix3 (bOf t) c' (Cert.Spec.pos (t.val % 8) r)) := by
  obtain ⟨e0, e1, e2⟩ := idx0 t
  have ht : t.val < 32 := lt_of_lt_of_eq t.isLt N_0
  unfold iblk
  rw [View.read_apply]
  show V m c main_v0 _ = V m c main_v0 _
  congr 1
  funext a
  apply Fin.ext
  match a with
  | ⟨0, _⟩ => show win0_0.index t (0 : Fin 3) * 1 + 1 * 0 = t.val / 8; omega
  | ⟨1, _⟩ => show win0_0.index t (1 : Fin 3) * 64 + 1 * c'.val = c'.val; omega
  | ⟨2, _⟩ =>
    show win0_0.index t (2 : Fin 3) * 16384 + 1 * r.val = (Cert.Spec.pos (t.val % 8) r).val
    rw [Cert.Spec.pos_val (by omega)]; omega

/-- The three resident blocks are their whole arrays. -/
theorem blk1_at (c : Dev nD) (t : Fin cfg0.N) (k : Fin 32) (c' : Fin 64) :
    (iblk m c 1 t : Vec Ideal S32x64 .f32) (ix2 k c') = CW m c (ix2 k c') := by
  obtain ⟨e0, e1, -, -, -, -⟩ := idx123 t
  refine Eq.trans ?_ (congrFun (V_main_arg1 m c) (ix2 k c'))
  unfold iblk
  rw [View.read_apply]
  show V m c main_arg1 _ = V m c main_arg1 _
  congr 1
  funext a
  apply Fin.ext
  match a with
  | ⟨0, _⟩ => show win0_1.index t (0 : Fin 2) * 32 + 1 * k.val = k.val; omega
  | ⟨1, _⟩ => show win0_1.index t (1 : Fin 2) * 64 + 1 * c'.val = c'.val; omega

theorem blk2_at (c : Dev nD) (t : Fin cfg0.N) (k : Fin 32) :
    (iblk m c 2 t : Vec Ideal S32x1 .f32) (ix2 k (0 : Fin 1)) = SC m c (ix1 k) := by
  obtain ⟨-, -, e0, e1, -, -⟩ := idx123 t
  refine Eq.trans ?_ (v1_at m c k)
  unfold iblk
  rw [View.read_apply]
  show V m c main_v1 _ = V m c main_v1 _
  congr 1
  funext a
  apply Fin.ext
  match a with
  | ⟨0, _⟩ => show win0_2.index t (0 : Fin 2) * 32 + 1 * k.val = k.val; omega
  | ⟨1, _⟩ => show win0_2.index t (1 : Fin 2) * 1 + 1 * 0 = 0; omega

theorem blk3_at (c : Dev nD) (t : Fin cfg0.N) (k : Fin 32) :
    (iblk m c 3 t : Vec Ideal S32x1 .f32) (ix2 k (0 : Fin 1)) = Cert.Spec.cwn (CW m c) k := by
  obtain ⟨-, -, -, -, e0, e1⟩ := idx123 t
  refine Eq.trans ?_ (v4_at m c k)
  unfold iblk
  rw [View.read_apply]
  show V m c main_v4 _ = V m c main_v4 _
  congr 1
  funext a
  apply Fin.ext
  match a with
  | ⟨0, _⟩ => show win0_3.index t (0 : Fin 2) * 32 + 1 * k.val = k.val; omega
  | ⟨1, _⟩ => show win0_3.index t (1 : Fin 2) * 1 + 1 * 0 = 0; omega

/-! ## The payloads at a point -/

theorem pay9_pt (c : Dev nD) (t : Fin cfg0.N) (u : Fin 1) (k : Fin 32) (r : Fin 16384) :
    k0_pay9 (F := Ideal) (iblk m c 0 t) (iblk m c 1 t) (iblk m c 2 t) (iblk m c 3 t) (ix3 u k r)
      = Cert.Spec.A (XA m c) (CW m c) (SC m c) (bOf t) k (Cert.Spec.pos (t.val % 8) r) :=
  Cert.KernelIdeal.Payload.pay9_at (iblk m c 0 t) (iblk m c 1 t) (iblk m c 2 t) (iblk m c 3 t) (XA m c) (CW m c) (SC m c)
    (bOf t) (t.val % 8) (blk0_at m c t) (blk1_at m c t) (blk2_at m c t) (blk3_at m c t) u k r

theorem pay11_pt (c : Dev nD) (t : Fin cfg0.N) (k : Fin 32) (c' : Fin 64) :
    k0_pay11 (F := Ideal) (iblk m c 0 t) (iblk m c 1 t) (iblk m c 2 t) (iblk m c 3 t) (ix2 k c')
      = Cert.Spec.atxTile (XA m c) (CW m c) (SC m c) (bOf t) (t.val % 8) k c' :=
  Cert.KernelIdeal.Payload.pay11_at (iblk m c 0 t) (iblk m c 1 t) (iblk m c 2 t) (iblk m c 3 t) (XA m c) (CW m c) (SC m c)
    (bOf t) (t.val % 8) (blk0_at m c t) (blk1_at m c t) (blk2_at m c t) (blk3_at m c t) k c'

theorem pay12_pt (c : Dev nD) (t : Fin cfg0.N) (k : Fin 32) :
    k0_pay12 (F := Ideal) (iblk m c 0 t) (iblk m c 1 t) (iblk m c 2 t) (iblk m c 3 t) (ix2 k (0 : Fin 1))
      = Cert.Spec.asumTile (XA m c) (CW m c) (SC m c) (bOf t) (t.val % 8) k :=
  Cert.KernelIdeal.Payload.pay12_at (iblk m c 0 t) (iblk m c 1 t) (iblk m c 2 t) (iblk m c 3 t) (XA m c) (CW m c) (SC m c)
    (bOf t) (t.val % 8) (blk0_at m c t) (blk1_at m c t) (blk2_at m c t) (blk3_at m c t) k

/-! ## What a point leaves: the weights' block -/

/-- In every case the weights' staging block is the softmax payload of the point's four input blocks. -/
theorem out5_eq (c : Dev nD) (t : Fin cfg0.N) :
    (outsAt0 m c t.val t.isLt).2.1 = k0_pay9 (F := Ideal) (iblk m c 0 t) (iblk m c 1 t) (iblk m c 2 t) (iblk m c 3 t) := by
  have hN : t.val < 32 := lt_of_lt_of_eq t.isLt N_0
  by_cases h0 : t.val % 8 = 0
  · have h1 : ¬t.val % 8 = 7 := by omega
    rw [outsAt0_A m c t h0 h1]
    dsimp only
    exact Cert.KernelIdeal.Pieces.out5_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))
  · by_cases h1 : t.val % 8 = 7
    · rw [outsAt0_C m c t h0 h1]
      dsimp only
      exact Cert.KernelIdeal.Pieces.out5_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) _ _ (fun h => h0 ((hcond0_0 t).mp h)) ((hcond0_1 t).mpr h1)
    · rw [outsAt0_B m c t h0 h1]
      dsimp only
      exact Cert.KernelIdeal.Pieces.out5_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) _ _ (fun h => h0 ((hcond0_0 t).mp h)) (fun h => h1 ((hcond0_1 t).mp h))

/-! ## The accumulators, tile after tile -/

/-- The first tile of a batch: zero plus the tile's share is the running sum up to tile 0. -/
theorem first0 (c : Dev nD) (t : Fin cfg0.N) (h0 : t.val % 8 = 0) :
    k0_pay3 (F := Ideal) (k0_pay11 (F := Ideal) (iblk m c 0 t) (iblk m c 1 t) (iblk m c 2 t) (iblk m c 3 t)) (k0_pay1 (F := Ideal))
      = Cert.Spec.atxUpTo (XA m c) (CW m c) (SC m c) (bOf t) (t.val % 8) := by
  funext i
  obtain ⟨k, c', rfl⟩ : ∃ (k : Fin 32) (c' : Fin 64), i = ix2 k c' := ⟨i 0, i 1, eq_ix2 i⟩
  rw [Cert.KernelIdeal.Payload.pay3_at, Cert.KernelIdeal.Payload.pay1_at, zero_add, pay11_pt]
  unfold Cert.Spec.atxUpTo
  rw [h0, Finset.sum_range_one]

theorem first1 (c : Dev nD) (t : Fin cfg0.N) (h0 : t.val % 8 = 0) :
    k0_pay4 (F := Ideal) (k0_pay12 (F := Ideal) (iblk m c 0 t) (iblk m c 1 t) (iblk m c 2 t) (iblk m c 3 t)) (k0_pay2 (F := Ideal))
      = Cert.Spec.asumUpTo (XA m c) (CW m c) (SC m c) (bOf t) (t.val % 8) := by
  funext i
  obtain ⟨k, u, rfl⟩ : ∃ (k : Fin 32) (u : Fin 1), i = ix2 k u := ⟨i 0, i 1, eq_ix2 i⟩
  obtain rfl : u = 0 := Subsingleton.elim _ _
  rw [Cert.KernelIdeal.Payload.pay4_at, Cert.KernelIdeal.Payload.pay2_at, zero_add, pay12_pt]
  unfold Cert.Spec.asumUpTo
  rw [h0, Finset.sum_range_one]

/-- A later tile of the same batch: the running sum up to the tile before plus this tile's share. -/
theorem next0 (c : Dev nD) (t tp : Fin cfg0.N) (hb : bOf t = bOf tp) (h8 : t.val % 8 = tp.val % 8 + 1) :
    k0_pay3 (F := Ideal) (k0_pay11 (F := Ideal) (iblk m c 0 t) (iblk m c 1 t) (iblk m c 2 t) (iblk m c 3 t)) (Cert.Spec.atxUpTo (XA m c) (CW m c) (SC m c) (bOf tp) (tp.val % 8))
      = Cert.Spec.atxUpTo (XA m c) (CW m c) (SC m c) (bOf t) (t.val % 8) := by
  funext i
  obtain ⟨k, c', rfl⟩ : ∃ (k : Fin 32) (c' : Fin 64), i = ix2 k c' := ⟨i 0, i 1, eq_ix2 i⟩
  rw [Cert.KernelIdeal.Payload.pay3_at, pay11_pt]
  unfold Cert.Spec.atxUpTo
  rw [h8, hb, Finset.sum_range_succ _ (tp.val % 8 + 1)]

theorem next1 (c : Dev nD) (t tp : Fin cfg0.N) (hb : bOf t = bOf tp) (h8 : t.val % 8 = tp.val % 8 + 1) :
    k0_pay4 (F := Ideal) (k0_pay12 (F := Ideal) (iblk m c 0 t) (iblk m c 1 t) (iblk m c 2 t) (iblk m c 3 t)) (Cert.Spec.asumUpTo (XA m c) (CW m c) (SC m c) (bOf tp) (tp.val % 8))
      = Cert.Spec.asumUpTo (XA m c) (CW m c) (SC m c) (bOf t) (t.val % 8) := by
  funext i
  obtain ⟨k, u, rfl⟩ : ∃ (k : Fin 32) (u : Fin 1), i = ix2 k u := ⟨i 0, i 1, eq_ix2 i⟩
  obtain rfl : u = 0 := Subsingleton.elim _ _
  rw [Cert.KernelIdeal.Payload.pay4_at, pay12_pt]
  unfold Cert.Spec.asumUpTo
  rw [h8, hb, Finset.sum_range_succ _ (tp.val % 8 + 1)]

/-- After point `n` the two accumulators hold the sums over the tiles 0 … n % 8 of batch n / 8: by induction on the
    point — a batch's first tile restarts from zero, every other tile adds to what the point before left. -/
theorem acc_eq (c : Dev nD) : ∀ (n : ℕ) (h : n < cfg0.N),
    (outsAt0 m c n h).2.2.1 = Cert.Spec.atxUpTo (XA m c) (CW m c) (SC m c) (bOf ⟨n, h⟩) (n % 8)
    ∧ (outsAt0 m c n h).2.2.2 = Cert.Spec.asumUpTo (XA m c) (CW m c) (SC m c) (bOf ⟨n, h⟩) (n % 8)
  | 0, h => by
    have h0 : (⟨0, h⟩ : Fin cfg0.N).val % 8 = 0 := rfl
    have h1 : ¬(⟨0, h⟩ : Fin cfg0.N).val % 8 = 7 := by show ¬(0 % 8 = 7); omega
    rw [outsAt0_A m c ⟨0, h⟩ h0 h1]
    dsimp only
    rw [Cert.KernelIdeal.Pieces.sout0_A, Cert.KernelIdeal.Pieces.sout1_A]
    exact ⟨first0 m c ⟨0, h⟩ h0, first1 m c ⟨0, h⟩ h0⟩
  | n + 1, h => by
    obtain ⟨ih0, ih1⟩ := acc_eq c n (Nat.lt_of_succ_lt h)
    have hN : n + 1 < 32 := lt_of_lt_of_eq h N_0
    by_cases h0 : (⟨n + 1, h⟩ : Fin cfg0.N).val % 8 = 0
    · have h1 : ¬(⟨n + 1, h⟩ : Fin cfg0.N).val % 8 = 7 := by dsimp only at h0 ⊢; omega
      rw [outsAt0_A m c ⟨n + 1, h⟩ h0 h1]
      dsimp only
      rw [Cert.KernelIdeal.Pieces.sout0_A, Cert.KernelIdeal.Pieces.sout1_A]
      exact ⟨first0 m c ⟨n + 1, h⟩ h0, first1 m c ⟨n + 1, h⟩ h0⟩
    · have hb : bOf ⟨n + 1, h⟩ = bOf ⟨n, Nat.lt_of_succ_lt h⟩ :=
        Fin.ext (by show (n + 1) / 8 = n / 8; dsimp only at h0; omega)
      have h8 : (⟨n + 1, h⟩ : Fin cfg0.N).val % 8 = (⟨n, Nat.lt_of_succ_lt h⟩ : Fin cfg0.N).val % 8 + 1 := by
        dsimp only at h0 ⊢; omega
      by_cases h1 : (⟨n + 1, h⟩ : Fin cfg0.N).val % 8 = 7
      · rw [outsAt0_C m c ⟨n + 1, h⟩ h0 h1]
        dsimp only
        rw [Cert.KernelIdeal.Pieces.sout0_C, Cert.KernelIdeal.Pieces.sout1_C]
        show k0_pay3 _ (outsAt0 m c n _).2.2.1 = _ ∧ k0_pay4 _ (outsAt0 m c n _).2.2.2 = _
        rw [ih0, ih1]
        exact ⟨next0 m c ⟨n + 1, h⟩ ⟨n, Nat.lt_of_succ_lt h⟩ hb h8, next1 m c ⟨n + 1, h⟩ ⟨n, Nat.lt_of_succ_lt h⟩ hb h8⟩
      · rw [outsAt0_B m c ⟨n + 1, h⟩ h0 h1]
        dsimp only
        rw [Cert.KernelIdeal.Pieces.sout0_B, Cert.KernelIdeal.Pieces.sout1_B]
        show k0_pay3 _ (outsAt0 m c n _).2.2.1 = _ ∧ k0_pay4 _ (outsAt0 m c n _).2.2.2 = _
        rw [ih0, ih1]
        exact ⟨next0 m c ⟨n + 1, h⟩ ⟨n, Nat.lt_of_succ_lt h⟩ hb h8, next1 m c ⟨n + 1, h⟩ ⟨n, Nat.lt_of_succ_lt h⟩ hb h8⟩

/-! ## What a batch's last tile leaves: the first result's block -/

/-- At a batch's last tile the first result's staging block is the residual aggregate of the accumulators as that
    same point leaves them. -/
theorem out4_eq (c : Dev nD) (t : Fin cfg0.N) (h1 : t.val % 8 = 7) :
    (outsAt0 m c t.val t.isLt).1
      = k0_pay5 (F := Ideal) (iblk m c 1 t) (outsAt0 m c t.val t.isLt).2.2.1 (outsAt0 m c t.val t.isLt).2.2.2 := by
  have h0 : ¬t.val % 8 = 0 := by omega
  rw [outsAt0_C m c t h0 h1]
  dsimp only
  rw [Cert.KernelIdeal.Pieces.out4_C, Cert.KernelIdeal.Pieces.sout0_C, Cert.KernelIdeal.Pieces.sout1_C]

/-- … which, the accumulators then holding the sums over all 8 tiles, is the specification's first result on the batch. -/
theorem out4_at (c : Dev nD) (t : Fin cfg0.N) (h1 : t.val % 8 = 7) (u : Fin 1) (k : Fin 32) (c' : Fin 64) :
    (outsAt0 m c t.val t.isLt).1 (ix3 u k c') = Cert.Spec.E (XA m c) (CW m c) (SC m c) (ix3 (bOf t) k c') := by
  rw [out4_eq m c t h1, Cert.KernelIdeal.Payload.pay5_at, (acc_eq m c t.val t.isLt).1, (acc_eq m c t.val t.isLt).2, blk1_at]
  unfold Cert.Spec.E Cert.Spec.atxUpTo Cert.Spec.asumUpTo
  rw [h1, Cert.Spec.atx_eq_tiles, Cert.Spec.asum_eq_tiles]

/-! ## From the blocks to the arrays -/

/-- What a point stores of the weights, read where its block lies in the array: the specification's weights there. -/
theorem wblock_pt (c : Dev nD) (t : Fin cfg0.N) (y : S1x32x16384.Idx) :
    k0_pay9 (F := Ideal) (iblk m c 0 t) (iblk m c 1 t) (iblk m c 2 t) (iblk m c 3 t) y = Cert.Spec.coef (XA m c) (CW m c) (SC m c) (((cfg0.win 5).blk t).view.emb y) := by
  obtain ⟨u, k, r, rfl⟩ : ∃ (u : Fin 1) (k : Fin 32) (r : Fin 16384), y = ix3 u k r := ⟨y 0, y 1, y 2, eq_ix3 y⟩
  obtain ⟨e0, e1, e2⟩ := idx5 t
  have ht : t.val < 32 := lt_of_lt_of_eq t.isLt N_0
  have hu : u.val = 0 := by omega
  rw [pay9_pt]
  have e : ((cfg0.win 5).blk t).view.emb (ix3 u k r) = (ix3 (bOf t) k (Cert.Spec.pos (t.val % 8) r) : S4x32x131072.Idx) := by
    funext a
    apply Fin.ext
    match a with
    | ⟨0, _⟩ => show win0_5.index t (0 : Fin 3) * 1 + 1 * u.val = t.val / 8; omega
    | ⟨1, _⟩ => show win0_5.index t (1 : Fin 3) * 32 + 1 * k.val = k.val; omega
    | ⟨2, _⟩ =>
      show win0_5.index t (2 : Fin 3) * 16384 + 1 * r.val = (Cert.Spec.pos (t.val % 8) r).val
      rw [Cert.Spec.pos_val (by omega)]; omega
  rw [e]
  rfl

/-- What every point writes back of the weights is its block of the specification's weights. -/
theorem flushed5_eq (c : Dev nD) (t : Fin cfg0.N) :
    (dats m 0 c).flushed 5 t = ((cfg0.win 5).blk t).view.read (Elt Ideal) (Cert.Spec.coef (XA m c) (CW m c) (SC m c)) := by
  show (cfg0.win 5).cut (grid0.coords t) ((dats m 0 c).after 5 t) = _
  rw [after0_5, out5_eq]
  funext j
  rw [View.read_apply]
  exact wblock_pt m c t j

/-- An index of the weights' array is in point `t`'s block iff each coordinate is in the block's range on its axis. -/
theorem mem_blk5 (t : Fin cfg0.N) (i : S4x32x131072.Idx) :
    i ∈ ((cfg0.win 5).blk t).view.set ↔ ∀ a : Fin 3, win0_5.index t a * S1x32x16384.size a ≤ (i a).val
      ∧ (i a).val < win0_5.index t a * S1x32x16384.size a + S1x32x16384.size a := by
  show i ∈ ((View.whole main_v5_1).slice (win0_5.rect t)).set ↔ _
  rw [View.set_slice_whole, Rect.mem_set_unit]
  exact Iff.rfl

/-- Every index (b, k, n) of the weights' array lies in the block of the point of batch `b` and tile `n / 16384`. -/
theorem cover5 (i : S4x32x131072.Idx) :
    ∃ t : Fin cfg0.N, (cfg0.win 5).flush t = true ∧ i ∈ ((cfg0.win 5).blk t).view.set := by
  have h0 : (i 0).val < 4 := (i 0).isLt
  have h1 : (i 1).val < 32 := (i 1).isLt
  have h2 : (i 2).val < 131072 := (i 2).isLt
  have hN : cfg0.N = 32 := N_0
  obtain ⟨t, ht⟩ : ∃ t : Fin cfg0.N, t.val = (i 0).val * 8 + (i 2).val / 16384 :=
    ⟨⟨(i 0).val * 8 + (i 2).val / 16384, by rw [hN]; omega⟩, rfl⟩
  obtain ⟨e0, e1, e2⟩ := idx5 t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 32 ≤ (i 1).val ∧ (i 1).val < win0_5.index t (1 : Fin 3) * 32 + 32
    omega
  | ⟨2, _⟩ =>
    show win0_5.index t (2 : Fin 3) * 16384 ≤ (i 2).val ∧ (i 2).val < win0_5.index t (2 : Fin 3) * 16384 + 16384
    omega

/-- So the weights' array ends holding the specification's weights. -/
theorem final5 (c : Dev nD) : (dats m 0 c).arrAt 5 cfg0.N = Cert.Spec.coef (XA m c) (CW m c) (SC m c) :=
  (dats m 0 c).arrAt_eq_of_cover 5 (Cert.Spec.coef (XA m c) (CW m c) (SC m c)) (fun t _ => flushed5_eq m c t) cover5

/-- What a batch's last tile stores of the first result, read where its block lies in the array. -/
theorem eblock_pt (c : Dev nD) (t : Fin cfg0.N) (h1 : t.val % 8 = 7) (y : S1x32x64.Idx) :
    (outsAt0 m c t.val t.isLt).1 y = Cert.Spec.E (XA m c) (CW m c) (SC m c) (((cfg0.win 4).blk t).view.emb y) := by
  obtain ⟨u, k, c', rfl⟩ : ∃ (u : Fin 1) (k : Fin 32) (c' : Fin 64), y = ix3 u k c' := ⟨y 0, y 1, y 2, eq_ix3 y⟩
  obtain ⟨e0, e1, e2⟩ := idx4 t
  have ht : t.val < 32 := lt_of_lt_of_eq t.isLt N_0
  have hu : u.val = 0 := by omega
  rw [out4_at m c t h1]
  have e : ((cfg0.win 4).blk t).view.emb (ix3 u k c') = (ix3 (bOf t) k c' : S4x32x64.Idx) := by
    funext a
    apply Fin.ext
    match a with
    | ⟨0, _⟩ => show win0_4.index t (0 : Fin 3) * 1 + 1 * u.val = t.val / 8; omega
    | ⟨1, _⟩ => show win0_4.index t (1 : Fin 3) * 32 + 1 * k.val = k.val; omega
    | ⟨2, _⟩ => show win0_4.index t (2 : Fin 3) * 64 + 1 * c'.val = c'.val; omega
  rw [e]

/-- The first result's window is written back at a batch's last tile only, with its block of the specification. -/
theorem flushed4_eq (c : Dev nD) (t : Fin cfg0.N) (hf : (cfg0.win 4).flush t = true) :
    (dats m 0 c).flushed 4 t = ((cfg0.win 4).blk t).view.read (Elt Ideal) (Cert.Spec.E (XA m c) (CW m c) (SC m c)) := by
  have h1 : t.val % 8 = 7 := (flush0_4 t).mp hf
  show (cfg0.win 4).cut (grid0.coords t) ((dats m 0 c).after 4 t) = _
  rw [after0_4]
  funext j
  rw [View.read_apply]
  exact eblock_pt m c t h1 j

theorem mem_blk4 (t : Fin cfg0.N) (i : S4x32x64.Idx) :
    i ∈ ((cfg0.win 4).blk t).view.set ↔ ∀ a : Fin 3, win0_4.index t a * S1x32x64.size a ≤ (i a).val
      ∧ (i a).val < win0_4.index t a * S1x32x64.size a + S1x32x64.size a := by
  show i ∈ ((View.whole main_v5_0).slice (win0_4.rect t)).set ↔ _
  rw [View.set_slice_whole, Rect.mem_set_unit]
  exact Iff.rfl

/-- Every index (b, k, c) of the first result lies in the block written back at batch `b`'s last tile. -/
theorem cover4 (i : S4x32x64.Idx) :
    ∃ t : Fin cfg0.N, (cfg0.win 4).flush t = true ∧ i ∈ ((cfg0.win 4).blk t).view.set := by
  have h0 : (i 0).val < 4 := (i 0).isLt
  have h1 : (i 1).val < 32 := (i 1).isLt
  have h2 : (i 2).val < 64 := (i 2).isLt
  have hN : cfg0.N = 32 := N_0
  obtain ⟨t, ht⟩ : ∃ t : Fin cfg0.N, t.val = (i 0).val * 8 + 7 := ⟨⟨(i 0).val * 8 + 7, by rw [hN]; omega⟩, rfl⟩
  obtain ⟨e0, e1, e2⟩ := idx4 t
  refine ⟨t, (flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 32 ≤ (i 1).val ∧ (i 1).val < win0_4.index t (1 : Fin 3) * 32 + 32
    omega
  | ⟨2, _⟩ =>
    show win0_4.index t (2 : Fin 3) * 64 ≤ (i 2).val ∧ (i 2).val < win0_4.index t (2 : Fin 3) * 64 + 64
    omega

/-- So the first result's array ends holding the specification's aggregated residuals. -/
theorem final4 (c : Dev nD) : (dats m 0 c).arrAt 4 cfg0.N = Cert.Spec.E (XA m c) (CW m c) (SC m c) :=
  (dats m 0 c).arrAt_eq_of_cover 4 (Cert.Spec.E (XA m c) (CW m c) (SC m c)) (flushed4_eq m c) cover4

/-! ## The host operation after the region, and the run -/

/-- The reshape after the region reads the weights' array as the region leaves it. -/
theorem tail_v6 (c : Dev nD) :
    Pipeline.afterTail₀ cfgs (dats m) 0 (V0 m) [hostOps1] c main_v6
      = shapeCast S4x32x32x64x64 (Cert.Spec.coef (XA m c) (CW m c) (SC m c)) shapeCasts_S4x32x131072_S4x32x32x64x64 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v5_1)
      = Cert.Spec.coef (XA m c) (CW m c) (SC m c) from (Pipeline.withArrays_arr spec0 launch0.win.arr_inj c _ _ 5).trans (final5 m c)]
  rfl

/-- The two results, as functions of the three arguments. -/
abbrev resE (c : Dev nD) : S4x32x64.Idx → EReal := Cert.Spec.E (XA m c) (CW m c) (SC m c)
abbrev resA (c : Dev nD) : S4x32x32x64x64.Idx → EReal :=
  shapeCast S4x32x32x64x64 (Cert.Spec.coef (XA m c) (CW m c) (SC m c)) shapeCasts_S4x32x131072_S4x32x32x64x64

/-- The same with the flattening of the features written out. -/
theorem resE_def (c : Dev nD) : resE m c
    = Cert.Spec.E (shapeCast S4x64x131072 (m ((c : Thread nD τ).loc main_arg0)) shapeCasts_S4x64x32x64x64_S4x64x131072)
        (CW m c) (SC m c) := by
  unfold resE
  rw [show XA m c = _ from V_v0 m c]
theorem resA_def (c : Dev nD) : resA m c
    = shapeCast S4x32x32x64x64 (Cert.Spec.coef
        (shapeCast S4x64x131072 (m ((c : Thread nD τ).loc main_arg0)) shapeCasts_S4x64x32x64x64_S4x64x131072)
        (CW m c) (SC m c)) shapeCasts_S4x32x131072_S4x32x32x64x64 := by
  unfold resA
  rw [show XA m c = _ from V_v0 m c]

/-- The kernel program's run, read: the first result at the specification's aggregated residuals, the second at the
    reshaped weights, the three arguments unchanged. -/
theorem run : θ_run defs (onTc (τ := τ) (main (F := Ideal))) ⟨m, fun _ => 0, ρ⟩ fun r => ∀ c : Dev nD,
      r.2.mem ((c : Thread nD τ).loc main_v5_0) = resE m c
      ∧ r.2.mem ((c : Thread nD τ).loc main_v6) = resA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final4 m c),
      ((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.lean ====
/-
  Vector-quantization encoding: scaled squared distances of every feature vector to 32 codewords, their softmax over
  the codewords (the assignment weights), and the weighted aggregation of the residuals.

  Both programs compute, from features X[b, c, n] (the three spatial axes flattened to n), codewords cw[k, c] and
  scales sc[k],
      logit[b, n, k] = sc[k] · ((Σ_c X[b,c,n]² + Σ_c cw[k,c]²) − 2 · Σ_c cw[k,c] · X[b,c,n]),
      A[b, k, n]     = exp (logit − max_k logit) / Σ_k exp (logit − max_k logit),
      E[b, k, c]     = Σ_n A[b,k,n] · X[b,c,n] − (Σ_n A[b,k,n]) · cw[k,c],
  and return E and A (A with its position axis unflattened again). Over the extended reals they differ only in
  arrangement. One program takes the 131072 positions whole; the other walks them in 8 tiles of 16384 per batch,
  accumulating the two sums over n from zero and writing E at the batch's last tile: a sum of 8 · 16384 terms is the sum
  of its 8 runs, and addition of extended reals is associative and commutative, so no finiteness is used. One program
  sums the weights directly, the other contracts them against a column of ones (a · 1 = a). One takes a maximum from −∞
  and then once more against −∞ (max (−∞, y) = y). One multiplies feature by codeword inside the inner product, the
  other codeword by feature. A change of float format is the identity here.

  Proof/Spec.lean states the formulas above once, index by index, together with the tile-by-tile form of the two sums;
  Proof/RefSide.lean shows the whole-array program computes them (one operation at a time, over the generated
  read-at-an-index lemmas of its run); Proof/KPieces.lean, Proof/KPayload.lean and Proof/KRun.lean show the tiled
  program does (what one run of its body stores; that arithmetic at an index; the induction over the grid's points, the
  blocks assembled into the arrays, the final reshape). The three programs' termination-and-unchanged-arguments claims
  are the generated frames (the whole-array program's is its generated run with the results dropped), and the word-level
  program's idealization rewrote no operation.
-/
import proofs.«142732_j90125593740048_2_alg».proof.Defs
import proofs.«142732_j90125593740048_2_alg».proof.Proof.Gen.Kernel
import proofs.«142732_j90125593740048_2_alg».proof.Proof.Gen.Kernel.Frame
import proofs.«142732_j90125593740048_2_alg».proof.Proof.Gen.KernelIdeal
import proofs.«142732_j90125593740048_2_alg».proof.Proof.Gen.KernelIdeal.Frame
import proofs.«142732_j90125593740048_2_alg».proof.Proof.Gen.ReferenceIdeal
import proofs.«142732_j90125593740048_2_alg».proof.Proof.Gen.Pre_finite_inputs
import proofs.«142732_j90125593740048_2_alg».proof.Proof.Gen.ReferenceIdeal.Run
import proofs.«142732_j90125593740048_2_alg».proof.Proof.Gen.ReferenceIdeal.Read
import proofs.«142732_j90125593740048_2_alg».proof.Proof.Spec
import proofs.«142732_j90125593740048_2_alg».proof.Proof.RefSide
import proofs.«142732_j90125593740048_2_alg».proof.Proof.KRun
import Idealize.ShloMosaic.Adequacy
import Idealize.ShloMosaic.Init

noncomputable section

namespace Cert.Proof

open Idealize.ShloMosaic Idealize.ShloMosaic.TcCoe Idealize.SL.Sem

/-- The word-level program terminates without fault and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the whole-array program: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten between the word-level program and its reading over the extended reals. -/
theorem preserves : Cert.preserves_Kernel_KernelIdeal := trivial

/-- From memories that agree on the three arguments both programs end with the specification's two results of those
    arguments: the aggregated residuals, and the assignment weights with the position axis unflattened. -/
theorem algebraic : Cert.algebraic_KernelIdeal_ReferenceIdeal := by
  intro m ρ m' ρ' _ hagree
  refine ⟨fun c => Cert.KernelIdeal.RunValue.resE m c, fun c => Cert.KernelIdeal.RunValue.resA m c,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the first result: the whole-array program's term is the specification of its own arguments, which agree
    rw [Cert.ReferenceIdeal.Read.val_main_v38_eq, Cert.RefSide.E_eq, (hagree c).1, (hagree c).2.1, (hagree c).2.2]
    exact (Cert.KernelIdeal.RunValue.resE_def m c).symm
  · -- the second result: the same final reshape of the specification's weights
    rw [Cert.ReferenceIdeal.Read.val_main_v30_eq]
    unfold Cert.ReferenceIdeal.Read.val_main_v30
    rw [Cert.RefSide.coef_eq, (hagree c).1, (hagree c).2.1, (hagree c).2.2]
    exact (Cert.KernelIdeal.RunValue.resA_def m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
